-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S19x1024 .f32 .bf16
  ∧ IdealRules.truncf_extf.Statement Cert.KernelIdeal.S19x1024 .f32 .bf16
  ∧ IdealRules.truncf_extf.Statement Cert.KernelIdeal.S19x1024 .f32 .bf16
  ∧ IdealRules.truncf_extf.Statement Cert.KernelIdeal.S19x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x256 : Shape := ⟨4, ![8, 512, 128, 256]⟩
abbrev S8x19x128x256 : Shape := ⟨4, ![8, 19, 128, 256]⟩
abbrev S_ : Shape := ⟨0, ![]⟩

class Facts : Prop where
  bcast_S_S8x512x128x256 : S_.BroadcastsInDim S8x512x128x256 (![] : Fin 0 → Fin S8x512x128x256.rank)
  reducesTo_S8x512x128x256_S_d0_1_2_3 : S8x512x128x256.ReducesTo [0, 1, 2, 3] S_
  h_S_ : 0 < S_.numel
  bcast_S_S8x19x128x256 : S_.BroadcastsInDim S8x19x128x256 (![] : Fin 0 → Fin S8x19x128x256.rank)
  reducesTo_S8x19x128x256_S_d0_1_2_3 : S8x19x128x256.ReducesTo [0, 1, 2, 3] S_

variable [Facts]

def fn {F : FTy → Type} [FloatOps F] (main_arg0 : FVec F S8x512x128x256 .f32) (main_arg1 : FVec F S8x19x128x256 .f32) : IVec S_ 1 :=
  let main_v0 : FVec F S8x512x128x256 .f32 := Host.absf main_arg0
  let main_cst : FVec F S_ .f32 := constant S_ .f32 0x7F800000#32
  let main_v1 : FVec F S8x512x128x256 .f32 := broadcastInDim S8x512x128x256 ![] bcast_S_S8x512x128x256 main_cst
  let main_v2 : IVec S8x512x128x256 1 := cmpf .olt main_v0 main_v1
  let main_c : IVec S_ 1 := constantI S_ 1 1#1
  let main_v3 : IVec S_ 1 := (fun x v => Host.reduce IntOp.andi x v reducesTo_S8x512x128x256_S_d0_1_2_3 h_S_) main_v2 main_c
  let main_v4 : FVec F S8x19x128x256 .f32 := Host.absf main_arg1
  let main_cst_0 : FVec F S_ .f32 := constant S_ .f32 0x7F800000#32
  let main_v5 : FVec F S8x19x128x256 .f32 := broadcastInDim S8x19x128x256 ![] bcast_S_S8x19x128x256 main_cst_0
  let main_v6 : IVec S8x19x128x256 1 := cmpf .olt main_v4 main_v5
  let main_c_1 : IVec S_ 1 := constantI S_ 1 1#1
  let main_v7 : IVec S_ 1 := (fun x v => Host.reduce IntOp.andi x v reducesTo_S8x19x128x256_S_d0_1_2_3 h_S_) main_v6 main_c_1
  let main_v8 : IVec S_ 1 := andi main_v3 main_v7
  main_v8
-- ==== Kernel.lean ====
abbrev S8x512x128x256 : Shape := ⟨4, ![8, 512, 128, 256]⟩
abbrev S8x19x128x256 : Shape := ⟨4, ![8, 19, 128, 256]⟩
abbrev S8x512x32768 : Shape := ⟨3, ![8, 512, 32768]⟩
abbrev S8x19x32768 : Shape := ⟨3, ![8, 19, 32768]⟩
abbrev S8x19x512 : Shape := ⟨3, ![8, 19, 512]⟩
abbrev S1x512x4096 : Shape := ⟨3, ![1, 512, 4096]⟩
abbrev S1x19x32768 : Shape := ⟨3, ![1, 19, 32768]⟩
abbrev S1x19x512 : Shape := ⟨3, ![1, 19, 512]⟩
abbrev S19x1 : Shape := ⟨2, ![19, 1]⟩
abbrev S19x512 : Shape := ⟨2, ![19, 512]⟩
abbrev S19x32768 : Shape := ⟨2, ![19, 32768]⟩
abbrev S19 : Shape := ⟨1, ![19]⟩
abbrev S1x19x1024 : Shape := ⟨3, ![1, 19, 1024]⟩
abbrev S19x1024 : Shape := ⟨2, ![19, 1024]⟩
abbrev S1x512x1024 : Shape := ⟨3, ![1, 512, 1024]⟩
abbrev S512x1024 : Shape := ⟨2, ![512, 1024]⟩
abbrev S8x512x19 : Shape := ⟨3, ![8, 512, 19]⟩
abbrev S8x512x19x1 : Shape := ⟨4, ![8, 512, 19, 1]⟩

abbrev nBuf : Space → Nat
  | .hbm => 7
  | .vmem => 9
  | .smem => 0
  | _ => 0

abbrev bufTy : (tb : Table) → Fin (tcTables nBuf tb) → BufTy
  | .hbm, ⟨0, _⟩ => ⟨S8x512x128x256, .f32⟩
  | .hbm, ⟨1, _⟩ => ⟨S8x19x128x256, .f32⟩
  | .hbm, ⟨2, _⟩ => ⟨S8x512x32768, .f32⟩
  | .hbm, ⟨3, _⟩ => ⟨S8x19x32768, .f32⟩
  | .hbm, ⟨4, _⟩ => ⟨S8x19x512, .f32⟩
  | .hbm, ⟨5, _⟩ => ⟨S8x512x19, .f32⟩
  | .hbm, ⟨6, _⟩ => ⟨S8x512x19x1, .f32⟩
  | .local _ .vmem, ⟨0, _⟩ => ⟨S1x512x4096, .f32⟩
  | .local _ .vmem, ⟨1, _⟩ => ⟨S1x512x4096, .f32⟩
  | .local _ .vmem, ⟨2, _⟩ => ⟨S1x19x32768, .f32⟩
  | .local _ .vmem, ⟨3, _⟩ => ⟨S1x19x32768, .f32⟩
  | .local _ .vmem, ⟨4, _⟩ => ⟨S1x19x512, .f32⟩
  | .local _ .vmem, ⟨5, _⟩ => ⟨S1x19x512, .f32⟩
  | .local _ .vmem, ⟨6, _⟩ => ⟨S19x1, .f32⟩
  | .local _ .vmem, ⟨7, _⟩ => ⟨S19x1, .f32⟩
  | .local _ .vmem, ⟨8, _⟩ => ⟨S19x512, .f32⟩
  | _, _ => ⟨S8x512x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c4096_i32 : BitVec 32 := 4096#32
  let v3 : BitVec 32 := Scalar.muli arg1 c4096_i32
  let c0_i32_1 : BitVec 32 := 0#32
  let c1024_i32 : BitVec 32 := 1024#32
  let v4 : BitVec 32 := Scalar.muli c0_i32_1 c1024_i32
  let v5 : BitVec 32 := Scalar.addi v3 v4
  v5
def k0_mult2 : BitVec 32 :=
  let c0_i32_1 : BitVec 32 := 0#32
  let c1024_i32_2 : BitVec 32 := 1024#32
  let v7 : BitVec 32 := Scalar.muli c0_i32_1 c1024_i32_2
  v7
def k0_off1 (i : grid0.Coords) (c0_i32_1 : BitVec 32) : Fin 3 → Nat :=
  let c0 : Index := 0#32
  let c0_3 : Index := 0#32
  let arg1 : BitVec 32 := BitVec.ofNat 32 (i 1).val
  let c4096_i32 : BitVec 32 := 4096#32
  let v3 : BitVec 32 := Scalar.muli arg1 c4096_i32
  let c1024_i32 : BitVec 32 := 1024#32
  let v4 : BitVec 32 := Scalar.muli c0_i32_1 c1024_i32
  let v5 : BitVec 32 := Scalar.addi v3 v4
  let v6 : BitVec 32 := v5
  let v9 : Index := Scalar.indexCast v6
  ![0, 0, v9.toNat]
def k0_off2 (c0_i32_1 : BitVec 32) : Fin 3 → Nat :=
  let c0_4 : Index := 0#32
  let c0_5 : Index := 0#32
  let c1024_i32_2 : BitVec 32 := 1024#32
  let v7 : BitVec 32 := Scalar.muli c0_i32_1 c1024_i32_2
  let v8 : BitVec 32 := v7
  let v12 : Index := Scalar.indexCast v8
  ![0, 0, v12.toNat]
def k0_mult3 (i : grid0.Coords) : BitVec 32 :=
  let arg1 : BitVec 32 := BitVec.ofNat 32 (i 1).val
  let c4096_i32_17 : BitVec 32 := 4096#32
  let v35 : BitVec 32 := Scalar.muli arg1 c4096_i32_17
  let c1_i32 : BitVec 32 := 1#32
  let c1024_i32_18 : BitVec 32 := 1024#32
  let v36 : BitVec 32 := Scalar.muli c1_i32 c1024_i32_18
  let v37 : BitVec 32 := Scalar.addi v35 v36
  v37
def k0_mult4 : BitVec 32 :=
  let c1_i32 : BitVec 32 := 1#32
  let c1024_i32_19 : BitVec 32 := 1024#32
  let v39 : BitVec 32 := Scalar.muli c1_i32 c1024_i32_19
  v39
def k0_mult5 (i : grid0.Coords) : BitVec 32 :=
  let arg1 : BitVec 32 := BitVec.ofNat 32 (i 1).val
  let c4096_i32_36 : BitVec 32 := 4096#32
  let v67 : BitVec 32 := Scalar.muli arg1 c4096_i32_36
  let c2_i32 : BitVec 32 := 2#32
  let c1024_i32_37 : BitVec 32 := 1024#32
  let v68 : BitVec 32 := Scalar.muli c2_i32 c1024_i32_37
  let v69 : BitVec 32 := Scalar.addi v67 v68
  v69
def k0_mult6 : BitVec 32 :=
  let c2_i32 : BitVec 32 := 2#32
  let c1024_i32_38 : BitVec 32 := 1024#32
  let v71 : BitVec 32 := Scalar.muli c2_i32 c1024_i32_38
  v71
def k0_mult7 (i : grid0.Coords) : BitVec 32 :=
  let arg1 : BitVec 32 := BitVec.ofNat 32 (i 1).val
  let c4096_i32_55 : BitVec 32 := 4096#32
  let v99 : BitVec 32 := Scalar.muli arg1 c4096_i32_55
  let c3_i32 : BitVec 32 := 3#32
  let c1024_i32_56 : BitVec 32 := 1024#32
  let v100 : BitVec 32 := Scalar.muli c3_i32 c1024_i32_56
  let v101 : BitVec 32 := Scalar.addi v99 v100
  v101
def k0_mult8 : BitVec 32 :=
  let c3_i32 : BitVec 32 := 3#32
  let c1024_i32_57 : BitVec 32 := 1024#32
  let v103 : BitVec 32 := Scalar.muli c3_i32 c1024_i32_57
  v103
def k0_cond2 (i : grid0.Coords) : BitVec 1 :=
  let arg1 : BitVec 32 := BitVec.ofNat 32 (i 1).val
  let c7_i32 : BitVec 32 := 7#32
  let v131 : BitVec 1 := Scalar.cmpi .eq arg1 c7_i32
  let v132 : BitVec 32 := Scalar.extui v131
  let c0_i32_74 : BitVec 32 := 0#32
  let v133 : BitVec 1 := Scalar.cmpi .ne v132 c0_i32_74
  v133

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x19x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x19x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x512x128x256_S8x512x32768 : S8x512x128x256.ShapeCasts S8x512x32768
  shapeCasts_S8x19x128x256_S8x19x32768 : S8x19x128x256.ShapeCasts S8x19x32768
  inb_S1x19x32768_S1x19x32768_0_0_0 : ∀ a, (![0, 0, 0] : Fin 3 → Nat) a + S1x19x32768.size a ≤ S1x19x32768.size a
  h_S1x19x32768 : 0 < S1x19x32768.numel
  shapeCasts_S1x19x32768_S19x32768 : S1x19x32768.ShapeCasts S19x32768
  reduces_S19x32768_S19 : S19x32768.Reduces [1] S19
  shapeCasts_S19_S19x1 : S19.ShapeCasts S19x1
  inb_S19x1_S19x1_0_0 : ∀ a, (![0, 0] : Fin 2 → Nat) a + S19x1.size a ≤ S19x1.size a
  h_S19x1 : 0 < S19x1.numel
  shapeCasts_S19x1_S19x1 : S19x1.ShapeCasts S19x1
  inb_S19x512_S19x512_0_0 : ∀ a, (![0, 0] : Fin 2 → Nat) a + S19x512.size a ≤ S19x512.size a
  h_S19x512 : 0 < S19x512.numel
  shapeCasts_S19x512_S19x512 : S19x512.ShapeCasts S19x512
  h_S1x19x1024 : 0 < S1x19x1024.numel
  shapeCasts_S1x19x1024_S19x1024 : S1x19x1024.ShapeCasts S19x1024
  h_S1x512x1024 : 0 < S1x512x1024.numel
  shapeCasts_S1x512x1024_S512x1024 : S1x512x1024.ShapeCasts S512x1024
  broadcasts_S19x1_S19x1024 : S19x1.Broadcasts S19x1024
  bitsLt_bf16_f32 : FTy.bits .bf16 < FTy.bits .f32
  reduces_S19x1024_S19 : S19x1024.Reduces [1] S19
  broadcasts_S19x1_S19x512 : S19x1.Broadcasts S19x512
  inb_S1x19x512_S1x19x512_0_0_0 : ∀ a, (![0, 0, 0] : Fin 3 → Nat) a + S1x19x512.size a ≤ S1x19x512.size a
  h_S1x19x512 : 0 < S1x19x512.numel
  shapeCasts_S1x19x512_S19x512 : S1x19x512.ShapeCasts S19x512
  shapeCasts_S19x512_S1x19x512 : S19x512.ShapeCasts S1x19x512
  transposes_S8x19x512_S8x512x19_0_2_1 : S8x19x512.Transposes [0, 2, 1] S8x512x19
  bcast_S8x512x19_S8x512x19x1_0_1_2 : S8x512x19.BroadcastsInDim S8x512x19x1 (![0, 1, 2] : Fin 3 → Fin S8x512x19x1.rank)
  dot_S19x1024_S512x1024_S19x512_1_1_0_0_n_n_wf : DotDims.WF S19x1024 S512x1024 S19x512 [1] [1] [0] [0] [] []
  hrank0 : 0 < grid0.rank
  k0_mult1_dvd : ∀ i : grid0.Coords, 1024 ∣ (k0_mult1 i).toNat
  k0_mult2_dvd : 1024 ∣ k0_mult2.toNat
  k0_off1_inb : ∀ i : grid0.Coords, ∀ (r : Fin 4), ∀ a, (k0_off1 i (BitVec.ofNat 32 r.val)) a + S1x19x1024.size a ≤ S1x19x32768.size a
  k0_off2_inb : ∀ (r : Fin 4), ∀ a, (k0_off2 (BitVec.ofNat 32 r.val)) a + S1x512x1024.size a ≤ S1x512x4096.size a
  k0_mult3_dvd : ∀ i : grid0.Coords, 1024 ∣ (k0_mult3 i).toNat
  k0_mult4_dvd : 1024 ∣ k0_mult4.toNat
  k0_mult5_dvd : ∀ i : grid0.Coords, 1024 ∣ (k0_mult5 i).toNat
  k0_mult6_dvd : 1024 ∣ k0_mult6.toNat
  k0_mult7_dvd : ∀ i : grid0.Coords, 1024 ∣ (k0_mult7 i).toNat
  k0_mult8_dvd : 1024 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x512x32768.size a
  hwx0_0 : ∀ i : grid0.Coords, EltTy.bits .f32 = 32 ∨ (Rect.block (s := S8x512x32768) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x19x32768.size a ≤ S8x19x32768.size a
  hwx0_1 : ∀ i : grid0.Coords, EltTy.bits .f32 = 32 ∨ (Rect.block (s := S8x19x32768) S1x19x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x512.size a ≤ S8x19x512.size a
  hwx0_2 : ∀ i : grid0.Coords, EltTy.bits .f32 = 32 ∨ (Rect.block (s := S8x19x512) S1x19x512.size (cc0_transform_2 i) (hinb0_2 i)).WholeWords (EltTy.packing .f32)

variable [Facts₀]

def dot_S19x1024_S512x1024_S19x512_1_1_0_0_n_n : DotDims S19x1024 S512x1024 S19x512 where
  lhsContracting := [1]
  rhsContracting := [1]
  lhsNonContracting := [0]
  rhsNonContracting := [0]
  lhsBatch := []
  rhsBatch := []
  wf := dot_S19x1024_S512x1024_S19x512_1_1_0_0_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x19x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x19x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x512x128x256 : Shape := ⟨4, ![8, 512, 128, 256]⟩
abbrev S8x19x128x256 : Shape := ⟨4, ![8, 19, 128, 256]⟩
abbrev S8x19x32768 : Shape := ⟨3, ![8, 19, 32768]⟩
abbrev S8x512x32768 : Shape := ⟨3, ![8, 512, 32768]⟩
abbrev S_ : Shape := ⟨0, ![]⟩
abbrev S8x19 : Shape := ⟨2, ![8, 19]⟩
abbrev S8x19x1 : Shape := ⟨3, ![8, 19, 1]⟩
abbrev S8x19x512 : Shape := ⟨3, ![8, 19, 512]⟩
abbrev S8x512x19 : Shape := ⟨3, ![8, 512, 19]⟩
abbrev S8x512x19x1 : Shape := ⟨4, ![8, 512, 19, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x512x128x256, .f32⟩
  | .hbm, ⟨1, _⟩ => ⟨S8x19x128x256, .f32⟩
  | .hbm, ⟨2, _⟩ => ⟨S8x19x32768, .f32⟩
  | .hbm, ⟨3, _⟩ => ⟨S8x512x32768, .f32⟩
  | .hbm, ⟨4, _⟩ => ⟨S_, .f32⟩
  | .hbm, ⟨5, _⟩ => ⟨S8x19x32768, .f32⟩
  | .hbm, ⟨6, _⟩ => ⟨S8x19x32768, .f32⟩
  | .hbm, ⟨7, _⟩ => ⟨S_, .f32⟩
  | .hbm, ⟨8, _⟩ => ⟨S8x19, .f32⟩
  | .hbm, ⟨9, _⟩ => ⟨S_, .f32⟩
  | .hbm, ⟨10, _⟩ => ⟨S8x19, .f32⟩
  | .hbm, ⟨11, _⟩ => ⟨S8x19, .f32⟩
  | .hbm, ⟨12, _⟩ => ⟨S8x19x1, .f32⟩
  | .hbm, ⟨13, _⟩ => ⟨S8x19x32768, .f32⟩
  | .hbm, ⟨14, _⟩ => ⟨S8x19x32768, .f32⟩
  | .hbm, ⟨15, _⟩ => ⟨S8x19x32768, .f32⟩
  | .hbm, ⟨16, _⟩ => ⟨S_, .f32⟩
  | .hbm, ⟨17, _⟩ => ⟨S8x19, .f32⟩
  | .hbm, ⟨18, _⟩ => ⟨S8x19x1, .f32⟩
  | .hbm, ⟨19, _⟩ => ⟨S8x19x32768, .f32⟩
  | .hbm, ⟨20, _⟩ => ⟨S8x19x32768, .f32⟩
  | .hbm, ⟨21, _⟩ => ⟨S8x19x512, .f32⟩
  | .hbm, ⟨22, _⟩ => ⟨S8x512x19, .f32⟩
  | .hbm, ⟨23, _⟩ => ⟨S8x512x19x1, .f32⟩
  | _, _ => ⟨S8x512x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S8x19x128x256_S8x19x32768 : S8x19x128x256.ShapeCasts S8x19x32768
  shapeCasts_S8x512x128x256_S8x512x32768 : S8x512x128x256.ShapeCasts S8x512x32768
  bcast_S_S8x19x32768 : S_.BroadcastsInDim S8x19x32768 (![] : Fin 0 → Fin S8x19x32768.rank)
  reducesTo_S8x19x32768_S8x19_d2 : S8x19x32768.ReducesTo [2] S8x19
  h_S_ : 0 < S_.numel
  bcast_S_S8x19 : S_.BroadcastsInDim S8x19 (![] : Fin 0 → Fin S8x19.rank)
  bcast_S8x19_S8x19x1_0_1 : S8x19.BroadcastsInDim S8x19x1 (![0, 1] : Fin 2 → Fin S8x19x1.rank)
  bcast_S8x19x1_S8x19x32768_0_1_2 : S8x19x1.BroadcastsInDim S8x19x32768 (![0, 1, 2] : Fin 3 → Fin S8x19x32768.rank)
  transposes_S8x19x512_S8x512x19_0_2_1 : S8x19x512.Transposes [0, 2, 1] S8x512x19
  bcast_S8x512x19_S8x512x19x1_0_1_2 : S8x512x19.BroadcastsInDim S8x512x19x1 (![0, 1, 2] : Fin 3 → Fin S8x512x19x1.rank)
  dot_S8x19x32768_S8x512x32768_S8x19x512_2_2_1_1_0_0_wf : DotDims.WF S8x19x32768 S8x512x32768 S8x19x512 [2] [2] [1] [1] [0] [0]

variable [Facts₀]

def dot_S8x19x32768_S8x512x32768_S8x19x512_2_2_1_1_0_0 : DotDims S8x19x32768 S8x512x32768 S8x19x512 where
  lhsContracting := [2]
  rhsContracting := [2]
  lhsNonContracting := [1]
  rhsNonContracting := [1]
  lhsBatch := [0]
  rhsBatch := [0]
  wf := dot_S8x19x32768_S8x512x32768_S8x19x512_2_2_1_1_0_0_wf

class Facts : Prop extends Facts₀ where

variable [Facts]
-- ==== Proof.Spec.lean ====
/-
  The value both programs compute, as one function of the two argument arrays.

  For a batch `b`, a class `k` and a channel `c`, with `s` running over the 128 × 256 = 32768 positions of the
  flattened plane (position `s` is row `s / 256`, column `s % 256`):

      w(b, k, s)   = exp (probs[b, k, s] - max over s' of probs[b, k, s'])
      out[b, c, k, 0] = (sum over s of w(b, k, s) * feats[b, c, s]) / (sum over s of w(b, k, s))

  that is, the softmax of `probs` over the plane, used as weights of a weighted sum of `feats`; the result is
  laid out [batch, channel, class, 1]. The maximum is folded from the pattern of minus infinity, as both
  programs fold it.
-/
import Idealize.ShloMosaic.PureOps.Ideal.Laws
import Idealize.ShloMosaic.Lib.ValueIdx
import Idealize.ShloMosaic.Lib.IdealHost

noncomputable section

namespace Cert.SpatialGather

open Idealize.ShloMosaic Idealize.ShloMosaic.ValueIdx

/-- The features: [batch 8, channel 512, 128, 256]. -/
abbrev SFeats : Shape := ⟨4, ![8, 512, 128, 256]⟩
/-- The scores: [batch 8, class 19, 128, 256]. -/
abbrev SProbs : Shape := ⟨4, ![8, 19, 128, 256]⟩
/-- The result: [batch 8, channel 512, class 19, 1]. -/
abbrev SOut : Shape := ⟨4, ![8, 512, 19, 1]⟩

/-- The row of the plane that flattened position `s` lies in. -/
def rowOf (s : Fin 32768) : Fin 128 := ⟨s.val / 256, by have := s.isLt; omega⟩
/-- The column of the plane that flattened position `s` lies in. -/
def colOf (s : Fin 32768) : Fin 256 := ⟨s.val % 256, by have := s.isLt; omega⟩

/-- `probs[b, k, s]`, the plane flattened. -/
def pAt (P : SProbs.Idx → EReal) (b : Fin 8) (k : Fin 19) (s : Fin 32768) : EReal :=
  P (ix4 b k (rowOf s) (colOf s))

/-- `feats[b, c, s]`, the plane flattened. -/
def fAt (X : SFeats.Idx → EReal) (b : Fin 8) (c : Fin 512) (s : Fin 32768) : EReal :=
  X (ix4 b c (rowOf s) (colOf s))

/-- The maximum of `probs[b, k, ·]` over the plane, folded from minus infinity. -/
def rowMax (P : SProbs.Idx → EReal) (b : Fin 8) (k : Fin 19) : EReal :=
  (Finset.univ : Finset (Fin 32768)).fold max (Ideal.ofBits .f32 0xFF800000#32) (pAt P b k)

/-- The unnormalized softmax weight `exp (probs[b, k, s] - max)`. -/
def wt (P : SProbs.Idx → EReal) (b : Fin 8) (k : Fin 19) (s : Fin 32768) : EReal :=
  Ideal.exp (pAt P b k s - rowMax P b k)

/-- The weighted sum of the features over the plane, unnormalized. -/
def num (X : SFeats.Idx → EReal) (P : SProbs.Idx → EReal) (b : Fin 8) (c : Fin 512) (k : Fin 19) : EReal :=
  ∑ s : Fin 32768, wt P b k s * fAt X b c s

/-- The softmax's normalizer. -/
def den (P : SProbs.Idx → EReal) (b : Fin 8) (k : Fin 19) : EReal :=
  ∑ s : Fin 32768, wt P b k s

/-- The result array: at [b, c, k, 0] the normalized weighted sum. -/
def G (X : SFeats.Idx → EReal) (P : SProbs.Idx → EReal) : SOut.Idx → EReal := fun i =>
  Ideal.div (num X P (i 0) (i 1) (i 2)) (den P (i 0) (i 2))

end Cert.SpatialGather

end
-- ==== Proof.Law.lean ====
/-
  The algebra that joins the two arrangements of the softmax-weighted sum.

  Over a finite nonempty index set, with reals p(s) and f(s) and a real m, put e(s) = exp (p(s) - m) > 0 and
  L = the sum of the e(s) > 0. Then

      sum over s of (e(s) / L) * f(s)  =  (sum over s of e(s) * f(s)) / L,

  the weights normalized one by one before the sum, or the sum normalized once. Both sides are stated on the
  extended reals, where the operations of the two programs live; every entry being a real, the coercion is pushed
  outward and the identity is the distributive law of the reals.

  With it the small order facts the reading of the maximum needs: the pattern of minus infinity is the bottom
  element, so taking the maximum with it changes nothing; the fold of the maximum from it over finitely many reals,
  at least one, is a real; and the pattern of one is the unit of the product.
-/
import Idealize.ShloMosaic.PureOps.Ideal.Laws
import Idealize.ShloMosaic.Lib.IdealHost

noncomputable section

namespace Cert.SpatialGather

open Idealize.ShloMosaic

/-- The f32 pattern of minus infinity is the bottom of the extended reals. -/
theorem ofBits_neg_inf_f32 : Ideal.ofBits .f32 0xFF800000#32 = ⊥ := by simp [Ideal.ofBits, Ideal.ieee]

/-- The maximum with minus infinity is the other operand. -/
theorem max_neg_inf (x : EReal) : max (Ideal.ofBits .f32 0xFF800000#32) x = x := by
  rw [ofBits_neg_inf_f32]; exact max_bot_left x

/-- The f32 pattern of one is the unit of the product. -/
theorem one_f32_mul (x : EReal) : Ideal.ofBits .f32 0x3F800000#32 * x = x := by
  rw [Ideal.ofBits_one_f32, one_mul]

/-- The coercion of the reals into the extended reals commutes with finite sums. -/
theorem coe_sum {ι : Type} (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- The fold of the maximum from minus infinity over finitely many reals, at least one, is a real. -/
theorem fold_max_real {ι : Type} [Fintype ι] [Nonempty ι] (p : ι → ℝ) :
    ∃ m : ℝ, (Finset.univ : Finset ι).fold max (Ideal.ofBits .f32 0xFF800000#32) (fun s => (p s : EReal)) = (m : EReal) := by
  rw [ofBits_neg_inf_f32]
  have htop : (Finset.univ : Finset ι).fold max (⊥ : EReal) (fun s => (p s : EReal)) ≠ ⊤ := by
    apply ne_of_lt
    rw [Finset.fold_max_lt]
    exact ⟨bot_lt_top, fun x _ => EReal.coe_lt_top _⟩
  have hbot : (Finset.univ : Finset ι).fold max (⊥ : EReal) (fun s => (p s : EReal)) ≠ ⊥ := by
    apply ne_of_gt
    rw [Finset.lt_fold_max]
    obtain ⟨s0⟩ := ‹Nonempty ι›
    exact Or.inr ⟨s0, Finset.mem_univ _, EReal.bot_lt_coe _⟩
  exact ⟨_, (EReal.coe_toReal htop hbot).symm⟩

/-- Normalizing each weight before the sum, or the sum once: the same value. -/
theorem normalized_sum {ι : Type} [Fintype ι] [Nonempty ι] (p f : ι → ℝ) (m : ℝ) :
    ∑ s, Ideal.div (Ideal.exp ((p s : EReal) - (m : EReal))) (∑ s', Ideal.exp ((p s' : EReal) - (m : EReal))) * (f s : EReal)
      = Ideal.div (∑ s, Ideal.exp ((p s : EReal) - (m : EReal)) * (f s : EReal))
          (∑ s, Ideal.exp ((p s : EReal) - (m : EReal))) := by
  have he : ∀ s, Ideal.exp ((p s : EReal) - (m : EReal)) = ((Real.exp (p s - m) : ℝ) : EReal) := fun s => by
    rw [← EReal.coe_sub, Ideal.exp_coe]
  simp only [he]
  have hL : (∑ s, Real.exp (p s - m)) ≠ 0 :=
    ne_of_gt (Finset.sum_pos (fun s _ => Real.exp_pos _) Finset.univ_nonempty)
  rw [← coe_sum, Ideal.div_coe hL]
  have hl : ∀ s, Ideal.div ((Real.exp (p s - m) : ℝ) : EReal) ((∑ s', Real.exp (p s' - m) : ℝ) : EReal) * (f s : EReal)
      = ((Real.exp (p s - m) * (1 / ∑ s', Real.exp (p s' - m)) * f s : ℝ) : EReal) := fun s => by
    rw [Ideal.div_coe hL, ← EReal.coe_mul, ← EReal.coe_mul]
  simp only [hl, ← EReal.coe_mul]
  rw [← coe_sum, ← coe_sum, ← EReal.coe_mul]
  congr 1
  rw [Finset.sum_mul]
  exact Finset.sum_congr rfl fun s _ => by ring

/-- The same in the arrangement the reference computes it: each score multiplied by the pattern of one, the maximum
    taken once more with minus infinity, the normalizer summed from the pattern of zero. -/
theorem softmax_weighted_sum {ι : Type} [Fintype ι] [Nonempty ι] (p f : ι → EReal)
    (hp : ∀ s, ∃ r : ℝ, p s = (r : EReal)) (hf : ∀ s, ∃ r : ℝ, f s = (r : EReal)) :
    ∑ s, Ideal.div
          (Ideal.exp (Ideal.ofBits .f32 0x3F800000#32 * p s
            - max (Ideal.ofBits .f32 0xFF800000#32)
                ((Finset.univ : Finset ι).fold max (Ideal.ofBits .f32 0xFF800000#32)
                  (fun s' => Ideal.ofBits .f32 0x3F800000#32 * p s'))))
          (Ideal.ofBits .f32 0x00000000#32 + ∑ s'', Ideal.exp (Ideal.ofBits .f32 0x3F800000#32 * p s''
            - max (Ideal.ofBits .f32 0xFF800000#32)
                ((Finset.univ : Finset ι).fold max (Ideal.ofBits .f32 0xFF800000#32)
                  (fun s' => Ideal.ofBits .f32 0x3F800000#32 * p s')))) * f s
      = Ideal.div (∑ s, Ideal.exp (p s - (Finset.univ : Finset ι).fold max (Ideal.ofBits .f32 0xFF800000#32) p) * f s)
          (∑ s, Ideal.exp (p s - (Finset.univ : Finset ι).fold max (Ideal.ofBits .f32 0xFF800000#32) p)) := by
  choose pr hpr using hp
  choose fr hfr using hf
  obtain rfl : p = fun s => (pr s : EReal) := funext hpr
  obtain rfl : f = fun s => (fr s : EReal) := funext hfr
  simp only [one_f32_mul, max_neg_inf, Ideal.ofBits_zero_f32, zero_add]
  obtain ⟨m, hm⟩ := fold_max_real pr
  rw [hm]
  exact normalized_sum pr fr m

end Cert.SpatialGather

end
-- ==== Proof.RefRead.lean ====
/-
  The reference's result read at an index: softmax over the flattened spatial axis, then the
  weighted sum against the features, then the transposition to [batch, channel, class, 1].

  Stage by stage, at coordinates: the two reshapes read the arguments at (row, column) = (s / 256, s % 256); the
  score is multiplied by the pattern of one; its maximum over the plane is a fold of the maximum from minus
  infinity, taken once more with minus infinity; the weight is the exponential of the difference, divided by the
  sum of the exponentials counted from the pattern of zero; the contraction sums weight times feature over the
  plane; the transposition and the trailing unit axis only rename the coordinates. Every entry being a real, the
  law of normalized sums turns this arrangement into the specification's.
-/
import proofs.«101032_j2894807957610_2_alg».proof.Defs
import proofs.«101032_j2894807957610_2_alg».proof.Proof.Gen.ReferenceIdeal.Run
import proofs.«101032_j2894807957610_2_alg».proof.Proof.Gen.ReferenceIdeal.Read
import proofs.«101032_j2894807957610_2_alg».proof.Proof.Spec
import proofs.«101032_j2894807957610_2_alg».proof.Proof.Law

noncomputable section

namespace Cert.SpatialGather

open Idealize.ShloMosaic Idealize.ShloMosaic.ValueIdx Cert.ReferenceIdeal Cert.ReferenceIdeal.Read

/-- The flattened score index (b, k, s) is the plane index (b, k, s / 256, s % 256). -/
theorem idx_probs (b : Fin 8) (k : Fin 19) (s : Fin 32768) :
    idx_main_v0 (ix3 b k s) = ix4 b k (rowOf s) (colOf s) := by
  funext a
  apply Fin.ext
  have hb := b.isLt
  have hk := k.isLt
  have hs := s.isLt
  match a with
  | ⟨0, _⟩ => show ((b.val * 19 + k.val) * 32768 + s.val) / 622592 = b.val; omega
  | ⟨1, _⟩ => show ((b.val * 19 + k.val) * 32768 + s.val) / 32768 % 19 = k.val; omega
  | ⟨2, _⟩ => show ((b.val * 19 + k.val) * 32768 + s.val) / 256 % 128 = s.val / 256; omega
  | ⟨3, _⟩ => show ((b.val * 19 + k.val) * 32768 + s.val) % 256 = s.val % 256; omega

/-- The flattened feature index (b, c, s) is the plane index (b, c, s / 256, s % 256). -/
theorem idx_feats (b : Fin 8) (c : Fin 512) (s : Fin 32768) :
    idx_main_v1 (ix3 b c s) = ix4 b c (rowOf s) (colOf s) := by
  funext a
  apply Fin.ext
  have hb := b.isLt
  have hc := c.isLt
  have hs := s.isLt
  match a with
  | ⟨0, _⟩ => show ((b.val * 512 + c.val) * 32768 + s.val) / 16777216 = b.val; omega
  | ⟨1, _⟩ => show ((b.val * 512 + c.val) * 32768 + s.val) / 32768 % 512 = c.val; omega
  | ⟨2, _⟩ => show ((b.val * 512 + c.val) * 32768 + s.val) / 256 % 128 = s.val / 256; omega
  | ⟨3, _⟩ => show ((b.val * 512 + c.val) * 32768 + s.val) % 256 = s.val % 256; omega

/-- The flattened features at (b, c, s). -/
theorem feats_read (X : SFeats.Idx → EReal) (b : Fin 8) (c : Fin 512) (s : Fin 32768) :
    val_main_v1 (F := Ideal) X (ix3 b c s) = fAt X b c s := by
  rw [val_main_v1_apply, idx_feats]; rfl

/-- The scaled score at (b, k, s): the pattern of one times the score. -/
theorem scaled_read (P : SProbs.Idx → EReal) (b : Fin 8) (k : Fin 19) (s : Fin 32768) :
    val_main_v3 (F := Ideal) P (ix3 b k s) = Ideal.ofBits .f32 0x3F800000#32 * pAt P b k s := by
  rw [val_main_v3_apply, val_main_v2_apply, val_main_cst_apply, val_main_v0_apply, idx_probs]; rfl

/-- The maximum the reference subtracts at (b, k). -/
def refMax (P : SProbs.Idx → EReal) (b : Fin 8) (k : Fin 19) : EReal :=
  max (Ideal.ofBits .f32 0xFF800000#32)
    ((Finset.univ : Finset (Fin 32768)).fold max (Ideal.ofBits .f32 0xFF800000#32)
      (fun s' => Ideal.ofBits .f32 0x3F800000#32 * pAt P b k s'))

/-- The reduction by maximum over the plane at (b, k): the fold of the maximum from minus infinity over the
    positions of the plane. -/
theorem max_read (P : SProbs.Idx → EReal) (b : Fin 8) (k : Fin 19) :
    val_main_v4 (F := Ideal) P (ix2 b k)
      = (Finset.univ : Finset (Fin 32768)).fold max (Ideal.ofBits .f32 0xFF800000#32)
          (fun s' => Ideal.ofBits .f32 0x3F800000#32 * pAt P b k s') := by
  have hR : Shape.Reduces S8x19x32768 [2] S8x19 := by decide
  unfold val_main_v4
  rw [Host.reduce_eq_fold_single FloatOps.maximumf _ _ _ hR]
  show (Finset.univ : Finset (Fin 32768)).fold max (Ideal.ofBits .f32 0xFF800000#32)
      (fun s' : Fin 32768 => val_main_v3 (F := Ideal) P (hR.lift (ix2 b k) s')) = _
  refine Finset.fold_congr fun s' _ => ?_
  have hl : hR.lift (ix2 b k) s' = ix3 b k s' := funext fun a => Fin.ext (by
    match a with
    | ⟨0, _⟩ => rfl
    | ⟨1, _⟩ => rfl
    | ⟨2, _⟩ => rfl)
  rw [hl, scaled_read]

/-- The maximum broadcast back over the plane. -/
theorem bmax_read (P : SProbs.Idx → EReal) (b : Fin 8) (k : Fin 19) (s : Fin 32768) :
    val_main_v8 (F := Ideal) P (ix3 b k s) = refMax P b k := by
  rw [val_main_v8_apply, val_main_v7_apply, val_main_v6_apply, val_main_v5_apply, val_main_cst_1_apply]
  have hi : idx_main_v7 (idx_main_v8 (ix3 b k s)) = ix2 b k := funext fun a => Fin.ext (by
    match a with
    | ⟨0, _⟩ => rfl
    | ⟨1, _⟩ => rfl)
  rw [hi, max_read]; rfl

/-- The unnormalized weight at (b, k, s). -/
theorem exp_read (P : SProbs.Idx → EReal) (b : Fin 8) (k : Fin 19) (s : Fin 32768) :
    val_main_v10 (F := Ideal) P (ix3 b k s)
      = Ideal.exp (Ideal.ofBits .f32 0x3F800000#32 * pAt P b k s - refMax P b k) := by
  rw [val_main_v10_apply, val_main_v9_apply, scaled_read, bmax_read]; rfl

/-- The normalizer broadcast back over the plane: the pattern of zero plus the sum of the weights. -/
theorem bsum_read (P : SProbs.Idx → EReal) (b : Fin 8) (k : Fin 19) (s : Fin 32768) :
    val_main_v13 (F := Ideal) P (ix3 b k s)
      = Ideal.ofBits .f32 0x00000000#32
        + ∑ s'' : Fin 32768, Ideal.exp (Ideal.ofBits .f32 0x3F800000#32 * pAt P b k s'' - refMax P b k) := by
  rw [val_main_v13_apply, val_main_v12_apply, val_main_v11_apply, val_main_cst_2_apply]
  have hi : idx_main_v12 (idx_main_v13 (ix3 b k s)) = ix2 b k := funext fun a => Fin.ext (by
    match a with
    | ⟨0, _⟩ => rfl
    | ⟨1, _⟩ => rfl)
  rw [hi]
  refine congrArg (_ + ·) (Finset.sum_congr rfl fun s'' _ => ?_)
  have hj : idx_main_v11 (ix2 b k) s'' = ix3 b k s'' := funext fun a => Fin.ext (by
    match a with
    | ⟨0, _⟩ => rfl
    | ⟨1, _⟩ => rfl
    | ⟨2, _⟩ => rfl)
  rw [hj, exp_read]

/-- The softmax weight at (b, k, s). -/
theorem weight_read (P : SProbs.Idx → EReal) (b : Fin 8) (k : Fin 19) (s : Fin 32768) :
    val_main_v14 (F := Ideal) P (ix3 b k s)
      = Ideal.div (Ideal.exp (Ideal.ofBits .f32 0x3F800000#32 * pAt P b k s - refMax P b k))
          (Ideal.ofBits .f32 0x00000000#32
            + ∑ s'' : Fin 32768, Ideal.exp (Ideal.ofBits .f32 0x3F800000#32 * pAt P b k s'' - refMax P b k)) := by
  rw [val_main_v14_apply, exp_read, bsum_read]; rfl

/-- The reference's result at [b, c, k, 0]: the sum over the plane of weight times feature. -/
theorem out_read (X : SFeats.Idx → EReal) (P : SProbs.Idx → EReal) (b : Fin 8) (c : Fin 512) (k : Fin 19) (z : Fin 1) :
    val_main_v17 (F := Ideal) X P (ix4 b c k z)
      = ∑ s : Fin 32768,
          Ideal.div (Ideal.exp (Ideal.ofBits .f32 0x3F800000#32 * pAt P b k s - refMax P b k))
            (Ideal.ofBits .f32 0x00000000#32
              + ∑ s'' : Fin 32768, Ideal.exp (Ideal.ofBits .f32 0x3F800000#32 * pAt P b k s'' - refMax P b k))
          * fAt X b c s := by
  rw [val_main_v17_apply, val_main_v16_apply, val_main_v15_apply]
  refine Finset.sum_congr rfl fun s _ => ?_
  have hl : lidx_main_v15 (idx_main_v16 (idx_main_v17 (ix4 b c k z))) s = ix3 b k s := funext fun a => Fin.ext (by
    match a with
    | ⟨0, _⟩ => rfl
    | ⟨1, _⟩ => rfl
    | ⟨2, _⟩ => rfl)
  have hr : ridx_main_v15 (idx_main_v16 (idx_main_v17 (ix4 b c k z))) s = ix3 b c s := funext fun a => Fin.ext (by
    match a with
    | ⟨0, _⟩ => rfl
    | ⟨1, _⟩ => rfl
    | ⟨2, _⟩ => rfl)
  rw [hl, hr, weight_read, feats_read]

/-- The reference's result array is the specification's function of the two argument arrays, when every entry of
    both is a real. -/
theorem ref_eq (X : SFeats.Idx → EReal) (P : SProbs.Idx → EReal)
    (hX : ∀ j, ∃ r : ℝ, X j = (r : EReal)) (hP : ∀ j, ∃ r : ℝ, P j = (r : EReal)) :
    Cert.ReferenceIdeal.Read.val_main_v17 (F := Ideal) X P = G X P := by
  funext i
  obtain ⟨b, c, k, z, rfl⟩ : ∃ (b : Fin 8) (c : Fin 512) (k : Fin 19) (z : Fin 1), i = ix4 b c k z :=
    ⟨i 0, i 1, i 2, i 3, eq_ix4 i⟩
  rw [out_read]
  exact softmax_weighted_sum (pAt P b k) (fAt X b c) (fun s => hP _) (fun s => hX _)

end Cert.SpatialGather

end
-- ==== Proof.Finite.lean ====
/-
  From the printed precondition to "every entry is a real".

  The precondition says of each argument array that the absolute value of every entry is below plus infinity, the
  two arrays' verdicts joined by "and". On the extended reals the absolute value of plus or minus infinity is plus
  infinity, which is not below itself, so an entry that passes is neither: it is a real.
-/
import proofs.«101032_j2894807957610_2_alg».proof.Pre_finite_inputs
import proofs.«101032_j2894807957610_2_alg».proof.Proof.Spec
import Idealize.ShloMosaic.Lib.ReduceAll
import Idealize.ShloMosaic.PureOps.Ideal.Laws

noncomputable section

namespace Cert.SpatialGather

open Idealize.ShloMosaic Idealize.ShloMosaic.ValueIdx

/-- The scalar shape has one index. -/
instance : Subsingleton Cert.Pre_finite_inputs.S_.Idx := ⟨fun a b => funext fun d => d.elim0⟩

/-- The f32 pattern of plus infinity is the top of the extended reals. -/
theorem ofBits_pos_inf_f32 : Ideal.ofBits .f32 0x7F800000#32 = ⊤ := by simp [Ideal.ofBits, Ideal.ieee]

/-- An extended real whose absolute value compares below plus infinity is a real. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_pos_inf_f32] at h
  induction x using EReal.rec with
  | bot => simp [Ideal.cmp] at h
  | top => simp [Ideal.cmp] at h
  | coe r => exact ⟨r, rfl⟩

/-- Under the precondition every entry of both argument arrays is a real. -/
theorem finite_of_pre [Cert.Pre_finite_inputs.Facts] (X : SFeats.Idx → EReal) (P : SProbs.Idx → EReal)
    (h : Cert.Pre_finite_inputs.fn (F := Ideal) X P = fun _ => 1#1) :
    (∀ j, ∃ r : ℝ, X j = (r : EReal)) ∧ (∀ j, ∃ r : ℝ, P j = (r : EReal)) := by
  have h0 := congrFun h ValueIdx.ix0
  dsimp only [Cert.Pre_finite_inputs.fn] at h0
  obtain ⟨hX, hP⟩ := IntOp.andi_eq_one.1 h0
  exact ⟨fun j => real_of_abs_lt_inf (X j) (Host.reduce_andi_all _ _ _ _ _ hX j),
         fun j => real_of_abs_lt_inf (P j) (Host.reduce_andi_all _ _ _ _ _ hP j)⟩

end Cert.SpatialGather

end
-- ==== Proof.KStep.lean ====
/-
  One chunk of the kernel's body, as pure functions, and what they compute at an index over the extended reals.

  The body walks its 4096-wide tile of the flattened plane in four chunks of 1024 positions. With `mx` the
  row maxima of the scores (one per class), a chunk `pc` of the scores and the same chunk `fc` of the features,
  each chunk adds to the running normalizer the lane sums of `exp (pc - mx)`, and to the running accumulator
  the product of `exp (pc - mx)` with `fc` contracted over the chunk's 1024 positions.
-/
import proofs.«101032_j2894807957610_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx

namespace Cert.KernelIdeal.KVal

open Cert.KernelIdeal Cert.KernelIdeal.Gen

variable {F : FTy → Type} [FloatOps F]

/-! ## The chunk's steps, at any float instance -/

/-- The weights of one chunk: `exp (score - row maximum)`, class by position. -/
def expBlk (pc : Vec F S1x19x1024 .f32) (mx : Vec F S19x1 .f32) : FVec F S19x1024 .f32 :=
  exp (subf (shapeCast S19x1024 pc shapeCasts_S1x19x1024_S19x1024) (broadcastTo S19x1024 mx broadcasts_S19x1_S19x1024))

/-- The normalizer after a chunk: what it held plus the chunk's weights summed over the chunk's positions. -/
def lStep (pc : Vec F S1x19x1024 .f32) (mx : Vec F S19x1 .f32) (l : Vec F S19x1 .f32) : FVec F S19x1 .f32 :=
  shapeCast S19x1 (addf l (shapeCast S19x1
    (multiReduction .add [1] S19 (expBlk pc mx) 0x00000000#32 reduces_S19x1024_S19 (.inl rfl) rfl) shapeCasts_S19_S19x1))
    shapeCasts_S19x1_S19x1

/-- The accumulator after a chunk: what it held plus the weights times the features, contracted over the chunk. -/
def accStep (pc : Vec F S1x19x1024 .f32) (fc : Vec F S1x512x1024 .f32) (mx : Vec F S19x1 .f32) (acc : Vec F S19x512 .f32) :
    FVec F S19x512 .f32 :=
  shapeCast S19x512 (addf acc (matmul dot_S19x1024_S512x1024_S19x512_1_1_0_0_n_n none
    (truncf .bf16 (expBlk pc mx) bitsLt_bf16_f32)
    (truncf .bf16 (shapeCast S512x1024 fc shapeCasts_S1x512x1024_S512x1024) bitsLt_bf16_f32)
    (constant S19x512 .f32 0x00000000#32))) shapeCasts_S19x512_S19x512

/-- The four chunks' normalizer payloads are this one step. -/
theorem pay9_eq : @k0_pay9 F _ = lStep := rfl
theorem pay13_eq : @k0_pay13 F _ = lStep := rfl
theorem pay16_eq : @k0_pay16 F _ = lStep := rfl
theorem pay2_eq : @k0_pay2 F _ = lStep := rfl

/-- The four chunks' accumulator payloads are this one step. -/
theorem pay11_eq (v10 : Vec F S1x19x1024 .f32) (v13 : Vec F S1x512x1024 .f32) (v15 : Vec F S19x1 .f32) (v29 : Vec F S19x512 .f32) :
    k0_pay11 (k0_pay10 v10 v13 v15 v29) = accStep v10 v13 v15 v29 := rfl
theorem pay14_eq : @k0_pay14 F _ = accStep := rfl
theorem pay17_eq : @k0_pay17 F _ = accStep := rfl
theorem pay3_eq : @k0_pay3 F _ = accStep := rfl

/-! ## A tile's four chunks -/

/-- Chunk `r` of the batch's scores, as the body loads it at grid point `i`: positions 4096·tile + 1024·r onwards. -/
def ldP (i : grid0.Coords) (r : Fin 4) (x1 : Vec F S1x19x32768 .f32) : Vec F S1x19x1024 .f32 :=
  View.ld x1 (Rect.unit (s := S1x19x32768) (k0_off1 i (BitVec.ofNat 32 r.val)) S1x19x1024.size (k0_off1_inb i r))

/-- Chunk `r` of the tile of features, as the body loads it: positions 1024·r onwards of the tile. -/
def ldF (r : Fin 4) (x0 : Vec F S1x512x4096 .f32) : Vec F S1x512x1024 .f32 :=
  View.ld x0 (Rect.unit (s := S1x512x4096) (k0_off2 (BitVec.ofNat 32 r.val)) S1x512x1024.size (k0_off2_inb r))

/-- The normalizer after the tile's four chunks, from `l0`. -/
def lChain (i : grid0.Coords) (x1 : Vec F S1x19x32768 .f32) (mx l0 : Vec F S19x1 .f32) : Vec F S19x1 .f32 :=
  lStep (ldP i 3 x1) mx (lStep (ldP i 2 x1) mx (lStep (ldP i 1 x1) mx (lStep (ldP i 0 x1) mx l0)))

/-- The accumulator after the tile's four chunks, from `a0`. -/
def accChain (i : grid0.Coords) (x0 : Vec F S1x512x4096 .f32) (x1 : Vec F S1x19x32768 .f32) (mx : Vec F S19x1 .f32)
    (a0 : Vec F S19x512 .f32) : Vec F S19x512 .f32 :=
  accStep (ldP i 3 x1) (ldF 3 x0) mx (accStep (ldP i 2 x1) (ldF 2 x0) mx (accStep (ldP i 1 x1) (ldF 1 x0) mx
    (accStep (ldP i 0 x1) (ldF 0 x0) mx a0)))

/-! ## Read at an index, over the extended reals -/

/-- A chunk's weight at class `k`, position `q` of the chunk. -/
theorem expBlk_apply (pc : Vec Ideal S1x19x1024 .f32) (mx : Vec Ideal S19x1 .f32) (k : Fin 19) (q : Fin 1024) :
    expBlk pc mx (ix2 k q) = Ideal.exp (pc (ix3 (0 : Fin 1) k q) - mx (ix2 k (0 : Fin 1))) := by
  show Ideal.exp (shapeCast S19x1024 pc shapeCasts_S1x19x1024_S19x1024 (ix2 k q)
    - broadcastTo S19x1024 mx broadcasts_S19x1_S19x1024 (ix2 k q)) = _
  rw [shapeCast_apply pc shapeCasts_S1x19x1024_S19x1024 (ix2 k q) (ix3 (0 : Fin 1) k q) (by
        rw [Shape.rowMajor_val_three, Shape.rowMajor_val_two]
        show ((0 * 19 + k.val) * 1024 + q.val) = k.val * 1024 + q.val
        omega),
    broadcastTo_apply mx broadcasts_S19x1_S19x1024 (ix2 k q) (ix2 k (0 : Fin 1)) (fun a => by
        match a with
        | ⟨0, _⟩ => show k.val = if (19 : Nat) = 1 then 0 else k.val; rw [if_neg (by decide)]
        | ⟨1, _⟩ => show (0 : Nat) = if (1 : Nat) = 1 then 0 else q.val; rw [if_pos rfl])]

/-- The lane index that a reduction over the positions of a [19, 1024] chunk inserts at class `k`. -/
theorem lift_chunk (k : Fin 19) (q : Fin 1024) : reduces_S19x1024_S19.lift (ix1 k) q = ix2 k q :=
  funext fun a => by match a with | ⟨0, _⟩ => rfl | ⟨1, _⟩ => rfl

/-- The normalizer after a chunk, at class `k`: what it held plus the chunk's weights summed over its positions. -/
theorem lStep_apply (pc : Vec Ideal S1x19x1024 .f32) (mx : Vec Ideal S19x1 .f32) (l : Vec Ideal S19x1 .f32) (k : Fin 19) (z : Fin 1) :
    lStep pc mx l (ix2 k z)
      = l (ix2 k z) + ∑ q : Fin 1024, Ideal.exp (pc (ix3 (0 : Fin 1) k q) - mx (ix2 k (0 : Fin 1))) := by
  unfold lStep
  rw [shapeCast_self]
  show l (ix2 k z) + shapeCast S19x1 (multiReduction .add [1] S19 (expBlk pc mx) 0x00000000#32 reduces_S19x1024_S19 (.inl rfl) rfl)
    shapeCasts_S19_S19x1 (ix2 k z) = _
  rw [shapeCast_apply _ shapeCasts_S19_S19x1 (ix2 k z) (ix1 k) (by
    rw [Shape.rowMajor_val_one, Shape.rowMajor_val_two]
    have := z.isLt
    show k.val = k.val * 1 + z.val
    omega)]
  refine congrArg (l (ix2 k z) + ·) ?_
  refine (Ideal.multiReduction_add_single (expBlk pc mx) 0x00000000#32 reduces_S19x1024_S19 (.inl rfl) rfl (ix1 k)).trans ?_
  show ∑ q : Fin 1024, expBlk pc mx (reduces_S19x1024_S19.lift (ix1 k) q) = _
  refine Finset.sum_congr rfl fun q _ => ?_
  rw [lift_chunk]
  exact expBlk_apply pc mx k q

/-- The contraction's operand indices: the weights at (class, position), the features at (channel, position). -/
theorem dot_lhs0 (i : S19x512.Idx) (q : dot_S19x1024_S512x1024_S19x512_1_1_0_0_n_n.contr.Idx) :
    (dot_S19x1024_S512x1024_S19x512_1_1_0_0_n_n.lhsIdx i q 0).val = (i 0).val := by
  unfold DotDims.lhsIdx
  rw [dif_neg (show ¬(0 : Fin S19x1024.rank) ∈ dot_S19x1024_S512x1024_S19x512_1_1_0_0_n_n.lhsBatch by decide),
    dif_pos (show (0 : Fin S19x1024.rank) ∈ dot_S19x1024_S512x1024_S19x512_1_1_0_0_n_n.lhsNonContracting by decide)]
  rfl
theorem dot_lhs1 (i : S19x512.Idx) (q : dot_S19x1024_S512x1024_S19x512_1_1_0_0_n_n.contr.Idx) :
    (dot_S19x1024_S512x1024_S19x512_1_1_0_0_n_n.lhsIdx i q 1).val = (q ⟨0, by decide⟩).val :=
  dot_S19x1024_S512x1024_S19x512_1_1_0_0_n_n.lhsIdx_val_of_single rfl i q
theorem dot_rhs0 (i : S19x512.Idx) (q : dot_S19x1024_S512x1024_S19x512_1_1_0_0_n_n.contr.Idx) :
    (dot_S19x1024_S512x1024_S19x512_1_1_0_0_n_n.rhsIdx i q 0).val = (i 1).val := by
  unfold DotDims.rhsIdx
  rw [dif_neg (show ¬(0 : Fin S512x1024.rank) ∈ dot_S19x1024_S512x1024_S19x512_1_1_0_0_n_n.rhsBatch by decide),
    dif_pos (show (0 : Fin S512x1024.rank) ∈ dot_S19x1024_S512x1024_S19x512_1_1_0_0_n_n.rhsNonContracting by decide)]
  rfl
theorem dot_rhs1 (i : S19x512.Idx) (q : dot_S19x1024_S512x1024_S19x512_1_1_0_0_n_n.contr.Idx) :
    (dot_S19x1024_S512x1024_S19x512_1_1_0_0_n_n.rhsIdx i q 1).val = (q ⟨0, by decide⟩).val :=
  dot_S19x1024_S512x1024_S19x512_1_1_0_0_n_n.rhsIdx_val_of_single rfl i q

/-- The accumulator after a chunk, at (class `k`, channel `c`): what it held plus the sum over the chunk's
    positions of weight times feature. The two roundings to bf16 on the way into the product are the identity
    on extended reals. -/
theorem accStep_apply (pc : Vec Ideal S1x19x1024 .f32) (fc : Vec Ideal S1x512x1024 .f32) (mx : Vec Ideal S19x1 .f32)
    (acc : Vec Ideal S19x512 .f32) (k : Fin 19) (c : Fin 512) :
    accStep pc fc mx acc (ix2 k c)
      = acc (ix2 k c) + ∑ q : Fin 1024, Ideal.exp (pc (ix3 (0 : Fin 1) k q) - mx (ix2 k (0 : Fin 1))) * fc (ix3 (0 : Fin 1) c q) := by
  unfold accStep
  rw [shapeCast_self]
  refine congrArg (acc (ix2 k c) + ·) ?_
  refine (Ideal.matmul_constant_zero_apply dot_S19x1024_S512x1024_S19x512_1_1_0_0_n_n none _ _ (ix2 k c)).trans ?_
  rw [← Equiv.sum_comp (contrEquiv1 dot_S19x1024_S512x1024_S19x512_1_1_0_0_n_n 1024 rfl rfl).symm]
  refine Finset.sum_congr rfl fun q _ => ?_
  have hq := contrEquiv1_symm_val dot_S19x1024_S512x1024_S19x512_1_1_0_0_n_n 1024 rfl rfl q
  have el : dot_S19x1024_S512x1024_S19x512_1_1_0_0_n_n.lhsIdx (ix2 k c)
      ((contrEquiv1 dot_S19x1024_S512x1024_S19x512_1_1_0_0_n_n 1024 rfl rfl).symm q) = ix2 k q := funext fun a => Fin.ext (by
    match a with
    | ⟨0, _⟩ => exact dot_lhs0 _ _
    | ⟨1, _⟩ => exact (dot_lhs1 _ _).trans hq)
  have er : dot_S19x1024_S512x1024_S19x512_1_1_0_0_n_n.rhsIdx (ix2 k c)
      ((contrEquiv1 dot_S19x1024_S512x1024_S19x512_1_1_0_0_n_n 1024 rfl rfl).symm q) = ix2 c q := funext fun a => Fin.ext (by
    match a with
    | ⟨0, _⟩ => exact dot_rhs0 _ _
    | ⟨1, _⟩ => exact (dot_rhs1 _ _).trans hq)
  rw [el, er]
  show expBlk pc mx (ix2 k q) * shapeCast S512x1024 fc shapeCasts_S1x512x1024_S512x1024 (ix2 c q) = _
  rw [expBlk_apply, shapeCast_apply fc shapeCasts_S1x512x1024_S512x1024 (ix2 c q) (ix3 (0 : Fin 1) c q) (by
    rw [Shape.rowMajor_val_three, Shape.rowMajor_val_two]
    show ((0 * 512 + c.val) * 1024 + q.val) = c.val * 1024 + q.val
    omega)]

/-! ## The first point's fills, and the last point's division -/

/-- The row maxima of a batch's scores, one per class, folded from minus infinity. -/
def rowMaxBlk (x1 : Vec F S1x19x32768 .f32) : FVec F S19x1 .f32 :=
  shapeCast S19x1 (shapeCast S19x1
    (multiReduction .maximumf [1] S19 (shapeCast S19x32768 x1 shapeCasts_S1x19x32768_S19x32768) 0xFF800000#32
      reduces_S19x32768_S19 (.inl rfl) rfl) shapeCasts_S19_S19x1) shapeCasts_S19x1_S19x1

theorem pay5_eq : @k0_pay5 F _ = rowMaxBlk := rfl

theorem lift_row (k : Fin 19) (q : Fin 32768) : reduces_S19x32768_S19.lift (ix1 k) q = ix2 k q :=
  funext fun a => by match a with | ⟨0, _⟩ => rfl | ⟨1, _⟩ => rfl

/-- The row maximum at class `k`: the fold of `max` from minus infinity over the plane's 32768 positions. -/
theorem rowMaxBlk_apply (x1 : Vec Ideal S1x19x32768 .f32) (k : Fin 19) (z : Fin 1) :
    rowMaxBlk x1 (ix2 k z)
      = (Finset.univ : Finset (Fin 32768)).fold max (Ideal.ofBits .f32 0xFF800000#32) (fun q => x1 (ix3 (0 : Fin 1) k q)) := by
  unfold rowMaxBlk
  rw [shapeCast_self]
  rw [shapeCast_apply _ shapeCasts_S19_S19x1 (ix2 k z) (ix1 k) (by
    rw [Shape.rowMajor_val_one, Shape.rowMajor_val_two]
    have := z.isLt
    show k.val = k.val * 1 + z.val
    omega)]
  refine (Ideal.multiReduction_maximumf_single (s := S19x32768) (t := S19) (a := 1) (φ := .f32)
    (shapeCast S19x32768 x1 shapeCasts_S1x19x32768_S19x32768) 0xFF800000#32 reduces_S19x32768_S19 (.inl rfl) rfl (ix1 k)).trans ?_
  have e : ((shapeCast S19x32768 x1 shapeCasts_S1x19x32768_S19x32768) ∘ (reduces_S19x32768_S19.lift (ix1 k) : Fin 32768 → S19x32768.Idx))
      = (fun q : Fin 32768 => x1 (ix3 (0 : Fin 1) k q)) := by
    funext (q : Fin 32768)
    show shapeCast S19x32768 x1 shapeCasts_S1x19x32768_S19x32768 (reduces_S19x32768_S19.lift (ix1 k) q) = _
    rw [lift_row, shapeCast_apply x1 shapeCasts_S1x19x32768_S19x32768 (ix2 k q) (ix3 (0 : Fin 1) k q) (by
      rw [Shape.rowMajor_val_three, Shape.rowMajor_val_two]
      show ((0 * 19 + k.val) * 32768 + q.val) = k.val * 32768 + q.val
      omega)]
  exact congrArg (fun f : Fin 32768 → EReal => (Finset.univ : Finset (Fin 32768)).fold max (Ideal.ofBits .f32 0xFF800000#32) f) e

/-- The normalizer's and the accumulator's first contents: zero everywhere. -/
theorem pay6_apply (y : S19x1.Idx) : k0_pay6 (F := Ideal) y = 0 := by
  unfold k0_pay6
  rw [shapeCast_self]
  exact Ideal.ofBits_zero_f32
theorem pay7_apply (y : S19x512.Idx) : k0_pay7 (F := Ideal) y = 0 := by
  unfold k0_pay7
  rw [shapeCast_self]
  exact Ideal.ofBits_zero_f32

/-- The last point's result: the accumulator divided by the normalizer, class by channel, as a [1, 19, 512] block. -/
theorem pay4_apply (acc : Vec Ideal S19x512 .f32) (l : Vec Ideal S19x1 .f32) (k : Fin 19) (c : Fin 512) :
    k0_pay4 acc l (ix3 (0 : Fin 1) k c) = Ideal.div (acc (ix2 k c)) (l (ix2 k (0 : Fin 1))) := by
  unfold k0_pay4
  rw [shapeCast_apply _ shapeCasts_S19x512_S1x19x512 (ix3 (0 : Fin 1) k c) (ix2 k c) (by
    rw [Shape.rowMajor_val_three, Shape.rowMajor_val_two]
    show k.val * 512 + c.val = ((0 * 19 + k.val) * 512 + c.val)
    omega)]
  show Ideal.div (acc (ix2 k c)) (broadcastTo S19x512 l broadcasts_S19x1_S19x512 (ix2 k c)) = _
  rw [broadcastTo_apply l broadcasts_S19x1_S19x512 (ix2 k c) (ix2 k (0 : Fin 1)) (fun a => by
    match a with
    | ⟨0, _⟩ => show k.val = if (19 : Nat) = 1 then 0 else k.val; rw [if_neg (by decide)]
    | ⟨1, _⟩ => show (0 : Nat) = if (1 : Nat) = 1 then 0 else c.val; rw [if_pos rfl])]

/-! ## The chunk loads read at an index -/

/-- Chunk `r` of the scores at (class `k`, position `q` of the chunk) is the batch's scores at position
    4096·tile + 1024·r + q, the tile being the grid point's second coordinate. -/
theorem ldP_apply (i : grid0.Coords) (r : Fin 4) (x1 : Vec Ideal S1x19x32768 .f32) (k : Fin 19) (q : Fin 1024)
    (p : Fin 32768) (hp : p.val = 4096 * (i 1).val + 1024 * r.val + q.val) :
    ldP i r x1 (ix3 (0 : Fin 1) k q) = x1 (ix3 (0 : Fin 1) k p) := by
  unfold ldP
  show x1 _ = x1 _
  refine congrArg x1 (funext fun a => Fin.ext ?_)
  have e := k0_off1_eq i r
  match a with
  | ⟨0, _⟩ => show (k0_off1 i (BitVec.ofNat 32 r.val)) 0 + 1 * 0 = 0; rw [e]; rfl
  | ⟨1, _⟩ => show (k0_off1 i (BitVec.ofNat 32 r.val)) 1 + 1 * k.val = k.val; rw [e]; show 0 + 1 * k.val = k.val; omega
  | ⟨2, _⟩ => show (k0_off1 i (BitVec.ofNat 32 r.val)) 2 + 1 * q.val = p.val; rw [e, hp]; show 4096 * (i 1).val + 1024 * r.val + 1 * q.val = _; omega

/-- Chunk `r` of the tile of features at (channel `c`, position `q` of the chunk) is the tile at position 1024·r + q. -/
theorem ldF_apply (r : Fin 4) (x0 : Vec Ideal S1x512x4096 .f32) (c : Fin 512) (q : Fin 1024)
    (p : Fin 4096) (hp : p.val = 1024 * r.val + q.val) :
    ldF r x0 (ix3 (0 : Fin 1) c q) = x0 (ix3 (0 : Fin 1) c p) := by
  unfold ldF
  show x0 _ = x0 _
  refine congrArg x0 (funext fun a => Fin.ext ?_)
  have e := k0_off2_eq r
  match a with
  | ⟨0, _⟩ => show (k0_off2 (BitVec.ofNat 32 r.val)) 0 + 1 * 0 = 0; rw [e]; rfl
  | ⟨1, _⟩ => show (k0_off2 (BitVec.ofNat 32 r.val)) 1 + 1 * c.val = c.val; rw [e]; show 0 + 1 * c.val = c.val; omega
  | ⟨2, _⟩ => show (k0_off2 (BitVec.ofNat 32 r.val)) 2 + 1 * q.val = p.val; rw [e, hp]; show 1024 * r.val + 1 * q.val = _; omega

end Cert.KernelIdeal.KVal

end
-- ==== Proof.KPieces.lean ====
/-
  What each of the body's three control cases leaves behind, as chains of the chunk steps.

  At the first spatial tile of a batch the body stores the row maxima, zeroes the normalizer and the accumulator,
  and then runs its four chunks; at a middle tile it only runs the four chunks over what the tile before left; at
  the last tile it runs them and stores accumulator / normalizer into the output block. Every store covers its whole
  buffer, so after a sequence of stores a buffer holds the last one's value, and a read-back between two stores
  reads the earlier one's value.
-/
import proofs.«101032_j2894807957610_2_alg».proof.Proof.Gen.KernelIdeal.Frame
import proofs.«101032_j2894807957610_2_alg».proof.Proof.KStep
import Idealize.ShloMosaic.Lib.Pipeline.Value
import Idealize.ShloMosaic.Lib.Tactic

set_option maxRecDepth 16384

noncomputable section

open Idealize.ShloMosaic Idealize.ShloMosaic.TcCoe Idealize.ShloMosaic.ValueIdx

namespace Cert.KernelIdeal.KVal

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer after several covering stores reads the last store's value. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- A middle tile leaves the normalizer at the four chunks' steps over what the tile before left. -/
theorem mid_norm (c : Dev nD) (i : grid0.Coords) (arg2 : Memref sig .tc .vmem S1x512x4096 .f32) (harg2 : arg2.IsWhole) (arg3 : Memref sig .tc .vmem S1x19x32768 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : ¬cond0_1 i)
    (x0 : Vec F S1x512x4096 .f32) (x1 : Vec F S1x19x32768 .f32) (xs0 : Vec F S19x1 .f32) (xs1 : Vec F S19x1 .f32) (xs2 : Vec F S19x512 .f32) :
    sout0_B_1 c i arg2 harg2 arg3 harg3 arg4 harg4 arg5 harg5 arg6 harg6 arg7 harg7 hc0 hc1 x0 x1 xs0 xs1 xs2 = lChain i x1 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_run_names
  rw [View.canon_cons_unit_zero (S := S19x1) hz2]
  simp only [readCov_cons_whole (S := S19x1) _ hz2, readCov_cons_whole (S := S19x512) _ hz2,
    View.readCov_unit_zero (S := S19x1) _ hz2, View.readCov_unit_zero (S := S19x512) _ hz2,
    View.readAt_eq_ld, harg2.read_unread, harg3.read_unread, harg5.read_unread, harg6.read_unread, harg7.read_unread,
    View.ld_unit_zero (S := S19x1) hz2, View.ld_unit_zero (S := S19x512) hz2, View.ld_unit_zero (S := S1x19x32768) hz3]
  rfl

/-- A middle tile leaves the accumulator at the four chunks' steps over what the tile before left. -/
theorem mid_acc (c : Dev nD) (i : grid0.Coords) (arg2 : Memref sig .tc .vmem S1x512x4096 .f32) (harg2 : arg2.IsWhole) (arg3 : Memref sig .tc .vmem S1x19x32768 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : ¬cond0_1 i)
    (x0 : Vec F S1x512x4096 .f32) (x1 : Vec F S1x19x32768 .f32) (xs0 : Vec F S19x1 .f32) (xs1 : Vec F S19x1 .f32) (xs2 : Vec F S19x512 .f32) :
    sout0_B_2 c i arg2 harg2 arg3 harg3 arg4 harg4 arg5 harg5 arg6 harg6 arg7 harg7 hc0 hc1 x0 x1 xs0 xs1 xs2 = accChain i x0 x1 xs0 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_run_names
  rw [View.canon_cons_unit_zero (S := S19x512) hz2]
  simp only [readCov_cons_whole (S := S19x1) _ hz2, readCov_cons_whole (S := S19x512) _ hz2,
    View.readCov_unit_zero (S := S19x1) _ hz2, View.readCov_unit_zero (S := S19x512) _ hz2,
    View.readAt_eq_ld, harg2.read_unread, harg3.read_unread, harg5.read_unread, harg6.read_unread, harg7.read_unread,
    View.ld_unit_zero (S := S19x1) hz2, View.ld_unit_zero (S := S19x512) hz2, View.ld_unit_zero (S := S1x19x32768) hz3]
  rfl

/-- The last tile leaves the normalizer at the four chunks' steps over what the tile before left. -/
theorem last_norm (c : Dev nD) (i : grid0.Coords) (arg2 : Memref sig .tc .vmem S1x512x4096 .f32) (harg2 : arg2.IsWhole) (arg3 : Memref sig .tc .vmem S1x19x32768 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i)
    (x0 : Vec F S1x512x4096 .f32) (x1 : Vec F S1x19x32768 .f32) (xs0 : Vec F S19x1 .f32) (xs1 : Vec F S19x1 .f32) (xs2 : Vec F S19x512 .f32) :
    sout0_C_1 c i arg2 harg2 arg3 harg3 arg4 harg4 arg5 harg5 arg6 harg6 arg7 harg7 hc0 hc1 x0 x1 xs0 xs1 xs2 = lChain i x1 xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_run_names
  rw [View.canon_cons_unit_zero (S := S19x1) hz2]
  simp only [readCov_cons_whole (S := S19x1) _ hz2, readCov_cons_whole (S := S19x512) _ hz2,
    View.readCov_unit_zero (S := S19x1) _ hz2, View.readCov_unit_zero (S := S19x512) _ hz2,
    View.readAt_eq_ld, harg2.read_unread, harg3.read_unread, harg5.read_unread, harg6.read_unread, harg7.read_unread,
    View.ld_unit_zero (S := S19x1) hz2, View.ld_unit_zero (S := S19x512) hz2, View.ld_unit_zero (S := S1x19x32768) hz3]
  rfl

/-- The last tile leaves the accumulator at the four chunks' steps over what the tile before left. -/
theorem last_acc (c : Dev nD) (i : grid0.Coords) (arg2 : Memref sig .tc .vmem S1x512x4096 .f32) (harg2 : arg2.IsWhole) (arg3 : Memref sig .tc .vmem S1x19x32768 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i)
    (x0 : Vec F S1x512x4096 .f32) (x1 : Vec F S1x19x32768 .f32) (xs0 : Vec F S19x1 .f32) (xs1 : Vec F S19x1 .f32) (xs2 : Vec F S19x512 .f32) :
    sout0_C_2 c i arg2 harg2 arg3 harg3 arg4 harg4 arg5 harg5 arg6 harg6 arg7 harg7 hc0 hc1 x0 x1 xs0 xs1 xs2 = accChain i x0 x1 xs0 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_run_names
  rw [View.canon_cons_unit_zero (S := S19x512) hz2]
  simp only [readCov_cons_whole (S := S19x1) _ hz2, readCov_cons_whole (S := S19x512) _ hz2,
    View.readCov_unit_zero (S := S19x1) _ hz2, View.readCov_unit_zero (S := S19x512) _ hz2,
    View.readAt_eq_ld, harg2.read_unread, harg3.read_unread, harg5.read_unread, harg6.read_unread, harg7.read_unread,
    View.ld_unit_zero (S := S19x1) hz2, View.ld_unit_zero (S := S19x512) hz2, View.ld_unit_zero (S := S1x19x32768) hz3]
  rfl

/-- The last tile stores into the output block the finished accumulator divided by the finished normalizer. -/
theorem last_out (c : Dev nD) (i : grid0.Coords) (arg2 : Memref sig .tc .vmem S1x512x4096 .f32) (harg2 : arg2.IsWhole) (arg3 : Memref sig .tc .vmem S1x19x32768 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i)
    (x0 : Vec F S1x512x4096 .f32) (x1 : Vec F S1x19x32768 .f32) (xs0 : Vec F S19x1 .f32) (xs1 : Vec F S19x1 .f32) (xs2 : Vec F S19x512 .f32) :
    out0_C_2 c i arg2 harg2 arg3 harg3 arg4 harg4 arg5 harg5 arg6 harg6 arg7 harg7 hc0 hc1 x0 x1 xs0 xs1 xs2 = k0_pay4 (accChain i x0 x1 xs0 xs2) (lChain i x1 xs0 xs1) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_run_names
  rw [View.canon_cons_unit_zero (S := S1x19x512) hz3]
  simp only [readCov_cons_whole (S := S19x1) _ hz2, readCov_cons_whole (S := S19x512) _ hz2,
    View.readCov_unit_zero (S := S19x1) _ hz2, View.readCov_unit_zero (S := S19x512) _ hz2,
    View.readAt_eq_ld, harg2.read_unread, harg3.read_unread, harg5.read_unread, harg6.read_unread, harg7.read_unread,
    View.ld_unit_zero (S := S19x1) hz2, View.ld_unit_zero (S := S19x512) hz2, View.ld_unit_zero (S := S1x19x32768) hz3]
  rfl

/-- The first tile stores the row maxima of the batch's scores. -/
theorem first_max (c : Dev nD) (i : grid0.Coords) (arg2 : Memref sig .tc .vmem S1x512x4096 .f32) (harg2 : arg2.IsWhole) (arg3 : Memref sig .tc .vmem S1x19x32768 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
    (x0 : Vec F S1x512x4096 .f32) (x1 : Vec F S1x19x32768 .f32) :
    sout0_A_0 c i arg2 harg2 arg3 harg3 arg4 harg4 arg5 harg5 arg6 harg6 arg7 harg7 hc0 hc1 x0 x1 = rowMaxBlk x1 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_run_names
  rw [View.canon_cons_unit_zero (S := S19x1) hz2]
  simp only [readCov_cons_whole (S := S19x1) _ hz2, readCov_cons_whole (S := S19x512) _ hz2,
    View.readCov_unit_zero (S := S19x1) _ hz2, View.readCov_unit_zero (S := S19x512) _ hz2,
    View.readAt_eq_ld, harg2.read_unread, harg3.read_unread, harg5.read_unread, harg6.read_unread, harg7.read_unread,
    View.ld_unit_zero (S := S19x1) hz2, View.ld_unit_zero (S := S19x512) hz2, View.ld_unit_zero (S := S1x19x32768) hz3]
  rfl

/-- The first tile leaves the normalizer at the four chunks' steps from zero, against the maxima it has just stored. -/
theorem first_norm (c : Dev nD) (i : grid0.Coords) (arg2 : Memref sig .tc .vmem S1x512x4096 .f32) (harg2 : arg2.IsWhole) (arg3 : Memref sig .tc .vmem S1x19x32768 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
    (x0 : Vec F S1x512x4096 .f32) (x1 : Vec F S1x19x32768 .f32) :
    sout0_A_1 c i arg2 harg2 arg3 harg3 arg4 harg4 arg5 harg5 arg6 harg6 arg7 harg7 hc0 hc1 x0 x1 = lChain i x1 (rowMaxBlk x1) k0_pay6 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_run_names
  rw [View.canon_cons_unit_zero (S := S19x1) hz2]
  simp only [readCov_cons_whole (S := S19x1) _ hz2, readCov_cons_whole (S := S19x512) _ hz2,
    View.readCov_unit_zero (S := S19x1) _ hz2, View.readCov_unit_zero (S := S19x512) _ hz2,
    View.readAt_eq_ld, harg2.read_unread, harg3.read_unread, harg5.read_unread, harg6.read_unread, harg7.read_unread,
    View.ld_unit_zero (S := S19x1) hz2, View.ld_unit_zero (S := S19x512) hz2, View.ld_unit_zero (S := S1x19x32768) hz3]
  rfl

/-- The first tile leaves the accumulator at the four chunks' steps from zero, against the maxima it has just stored. -/
theorem first_acc (c : Dev nD) (i : grid0.Coords) (arg2 : Memref sig .tc .vmem S1x512x4096 .f32) (harg2 : arg2.IsWhole) (arg3 : Memref sig .tc .vmem S1x19x32768 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
    (x0 : Vec F S1x512x4096 .f32) (x1 : Vec F S1x19x32768 .f32) :
    sout0_A_2 c i arg2 harg2 arg3 harg3 arg4 harg4 arg5 harg5 arg6 harg6 arg7 harg7 hc0 hc1 x0 x1 = accChain i x0 x1 (rowMaxBlk x1) k0_pay7 := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_run_names
  rw [View.canon_cons_unit_zero (S := S19x512) hz2]
  simp only [readCov_cons_whole (S := S19x1) _ hz2, readCov_cons_whole (S := S19x512) _ hz2,
    View.readCov_unit_zero (S := S19x1) _ hz2, View.readCov_unit_zero (S := S19x512) _ hz2,
    View.readAt_eq_ld, harg2.read_unread, harg3.read_unread, harg5.read_unread, harg6.read_unread, harg7.read_unread,
    View.ld_unit_zero (S := S19x1) hz2, View.ld_unit_zero (S := S19x512) hz2, View.ld_unit_zero (S := S1x19x32768) hz3]
  rfl

end Cert.KernelIdeal.KVal

end
-- ==== Proof.KTile.lean ====
/-
  A tile's four chunks as partial sums over the flattened plane.

  With the weights `w(s) = exp (probs[b, k, s] - max)` of Spec.lean, write `denTo n` for the sum of `w(s)` over
  the first `n` positions of the plane and `numTo n` for the sum of `w(s) * feats[b, c, s]` over them. A chunk at
  offset `off` contributes the next 1024 terms; a tile, four chunks at offsets 4096·tile + 1024·r; so the four
  steps take `denTo (4096·tile)` to `denTo (4096·(tile + 1))`, and the same for `numTo`. Only the regrouping of
  a sum is used: no cancellation, so nothing here needs the inputs to be finite.
-/
import proofs.«101032_j2894807957610_2_alg».proof.Proof.KStep
import proofs.«101032_j2894807957610_2_alg».proof.Proof.Spec

set_option maxRecDepth 16384

noncomputable section

open Idealize.ShloMosaic Idealize.ShloMosaic.TcCoe Idealize.ShloMosaic.ValueIdx

namespace Cert.KernelIdeal.KVal

open Cert.KernelIdeal Cert.KernelIdeal.Gen Cert.SpatialGather

variable (X : SFeats.Idx → EReal) (P : SProbs.Idx → EReal) (b : Fin 8) (c : Fin 512) (k : Fin 19)

/-- The weight at a natural position of the plane (zero past its end). -/
def wtN (q : ℕ) : EReal := if h : q < 32768 then wt P b k ⟨q, h⟩ else 0
/-- The weighted feature at a natural position of the plane (zero past its end). -/
def wfN (q : ℕ) : EReal := if h : q < 32768 then wt P b k ⟨q, h⟩ * fAt X b c ⟨q, h⟩ else 0

/-- The normalizer over the first `n` positions. -/
def denTo (n : ℕ) : EReal := ∑ q ∈ Finset.range n, wtN P b k q
/-- The weighted sum over the first `n` positions. -/
def numTo (n : ℕ) : EReal := ∑ q ∈ Finset.range n, wfN X P b c k q

theorem denTo_zero : denTo P b k 0 = 0 := Finset.sum_range_zero _
theorem numTo_zero : numTo X P b c k 0 = 0 := Finset.sum_range_zero _

theorem denTo_add (n j : ℕ) : denTo P b k (n + j) = denTo P b k n + ∑ q ∈ Finset.range j, wtN P b k (n + q) :=
  Finset.sum_range_add _ _ _
theorem numTo_add (n j : ℕ) : numTo X P b c k (n + j) = numTo X P b c k n + ∑ q ∈ Finset.range j, wfN X P b c k (n + q) :=
  Finset.sum_range_add _ _ _

/-- Over the whole plane the partial sums are Spec.lean's normalizer and weighted sum. -/
theorem denTo_full : denTo P b k 32768 = den P b k := by
  unfold denTo den
  rw [← Fin.sum_univ_eq_sum_range (fun q => wtN P b k q) 32768]
  refine Finset.sum_congr rfl fun q _ => ?_
  unfold wtN
  rw [dif_pos q.isLt]
theorem numTo_full : numTo X P b c k 32768 = num X P b c k := by
  unfold numTo num
  rw [← Fin.sum_univ_eq_sum_range (fun q => wfN X P b c k q) 32768]
  refine Finset.sum_congr rfl fun q _ => ?_
  unfold wfN
  rw [dif_pos q.isLt]

/-- One chunk's lane sum is the next 1024 terms of the normalizer. -/
theorem chunk_den (pc : Vec Ideal S1x19x1024 .f32) (mx : Vec Ideal S19x1 .f32) (off : ℕ) (hoff : off + 1024 ≤ 32768)
    (hpc : ∀ (q : Fin 1024) (p : Fin 32768), p.val = off + q.val → pc (ix3 (0 : Fin 1) k q) = pAt P b k p)
    (hmx : mx (ix2 k (0 : Fin 1)) = rowMax P b k) :
    ∑ q : Fin 1024, Ideal.exp (pc (ix3 (0 : Fin 1) k q) - mx (ix2 k (0 : Fin 1)))
      = ∑ q ∈ Finset.range 1024, wtN P b k (off + q) := by
  rw [← Fin.sum_univ_eq_sum_range (fun q => wtN P b k (off + q)) 1024]
  refine Finset.sum_congr rfl fun q _ => ?_
  have hq : off + q.val < 32768 := by have := q.isLt; omega
  unfold wtN
  rw [dif_pos hq]
  unfold wt
  rw [hpc q ⟨off + q.val, hq⟩ rfl, hmx]

/-- One chunk's contraction is the next 1024 terms of the weighted sum. -/
theorem chunk_num (pc : Vec Ideal S1x19x1024 .f32) (fc : Vec Ideal S1x512x1024 .f32) (mx : Vec Ideal S19x1 .f32)
    (off : ℕ) (hoff : off + 1024 ≤ 32768)
    (hpc : ∀ (q : Fin 1024) (p : Fin 32768), p.val = off + q.val → pc (ix3 (0 : Fin 1) k q) = pAt P b k p)
    (hfc : ∀ (q : Fin 1024) (p : Fin 32768), p.val = off + q.val → fc (ix3 (0 : Fin 1) c q) = fAt X b c p)
    (hmx : mx (ix2 k (0 : Fin 1)) = rowMax P b k) :
    ∑ q : Fin 1024, Ideal.exp (pc (ix3 (0 : Fin 1) k q) - mx (ix2 k (0 : Fin 1))) * fc (ix3 (0 : Fin 1) c q)
      = ∑ q ∈ Finset.range 1024, wfN X P b c k (off + q) := by
  rw [← Fin.sum_univ_eq_sum_range (fun q => wfN X P b c k (off + q)) 1024]
  refine Finset.sum_congr rfl fun q _ => ?_
  have hq : off + q.val < 32768 := by have := q.isLt; omega
  unfold wfN
  rw [dif_pos hq]
  unfold wt
  rw [hpc q ⟨off + q.val, hq⟩ rfl, hfc q ⟨off + q.val, hq⟩ rfl, hmx]

/-- A tile's four chunk steps take the normalizer over the first 4096·tile positions to the one over the first
    4096·(tile + 1). -/
theorem tile_den (i : grid0.Coords) (s : ℕ) (hs : (i 1).val = s) (hs8 : s < 8)
    (x1 : Vec Ideal S1x19x32768 .f32) (mx l0 : Vec Ideal S19x1 .f32) (z : Fin 1)
    (hx1 : ∀ p : Fin 32768, x1 (ix3 (0 : Fin 1) k p) = pAt P b k p)
    (hmx : mx (ix2 k (0 : Fin 1)) = rowMax P b k)
    (hl0 : l0 (ix2 k z) = denTo P b k (4096 * s)) :
    lChain i x1 mx l0 (ix2 k z) = denTo P b k (4096 * (s + 1)) := by
  unfold lChain
  rw [lStep_apply, lStep_apply, lStep_apply, lStep_apply, hl0]
  rw [chunk_den P b k (ldP i 0 x1) mx (4096 * s) (by omega)
      (fun q p hp => (ldP_apply i 0 x1 k q p (by rw [hp, hs]; show 4096 * s + q.val = 4096 * s + 1024 * 0 + q.val; omega)).trans (hx1 p)) hmx,
    chunk_den P b k (ldP i 1 x1) mx (4096 * s + 1024) (by omega)
      (fun q p hp => (ldP_apply i 1 x1 k q p (by rw [hp, hs]; show 4096 * s + 1024 + q.val = 4096 * s + 1024 * 1 + q.val; omega)).trans (hx1 p)) hmx,
    chunk_den P b k (ldP i 2 x1) mx (4096 * s + 1024 + 1024) (by omega)
      (fun q p hp => (ldP_apply i 2 x1 k q p (by rw [hp, hs]; show 4096 * s + 1024 + 1024 + q.val = 4096 * s + 1024 * 2 + q.val; omega)).trans (hx1 p)) hmx,
    chunk_den P b k (ldP i 3 x1) mx (4096 * s + 1024 + 1024 + 1024) (by omega)
      (fun q p hp => (ldP_apply i 3 x1 k q p (by rw [hp, hs]; show 4096 * s + 1024 + 1024 + 1024 + q.val = 4096 * s + 1024 * 3 + q.val; omega)).trans (hx1 p)) hmx]
  rw [show 4096 * (s + 1) = 4096 * s + 1024 + 1024 + 1024 + 1024 by omega, denTo_add, denTo_add, denTo_add, denTo_add]

/-- A tile's four chunk steps take the weighted sum over the first 4096·tile positions to the one over the first
    4096·(tile + 1). -/
theorem tile_num (i : grid0.Coords) (s : ℕ) (hs : (i 1).val = s) (hs8 : s < 8)
    (x0 : Vec Ideal S1x512x4096 .f32) (x1 : Vec Ideal S1x19x32768 .f32) (mx : Vec Ideal S19x1 .f32) (a0 : Vec Ideal S19x512 .f32)
    (hx0 : ∀ (q : Fin 4096) (p : Fin 32768), p.val = 4096 * s + q.val → x0 (ix3 (0 : Fin 1) c q) = fAt X b c p)
    (hx1 : ∀ p : Fin 32768, x1 (ix3 (0 : Fin 1) k p) = pAt P b k p)
    (hmx : mx (ix2 k (0 : Fin 1)) = rowMax P b k)
    (ha0 : a0 (ix2 k c) = numTo X P b c k (4096 * s)) :
    accChain i x0 x1 mx a0 (ix2 k c) = numTo X P b c k (4096 * (s + 1)) := by
  unfold accChain
  rw [accStep_apply, accStep_apply, accStep_apply, accStep_apply, ha0]
  rw [chunk_num X P b c k (ldP i 0 x1) (ldF 0 x0) mx (4096 * s) (by omega)
      (fun q p hp => (ldP_apply i 0 x1 k q p (by rw [hp, hs]; show 4096 * s + q.val = 4096 * s + 1024 * 0 + q.val; omega)).trans (hx1 p))
      (fun q p hp => (ldF_apply 0 x0 c q ⟨q.val, by have := q.isLt; omega⟩ (by show q.val = 1024 * 0 + q.val; omega)).trans
        (hx0 _ p (by rw [hp]))) hmx,
    chunk_num X P b c k (ldP i 1 x1) (ldF 1 x0) mx (4096 * s + 1024) (by omega)
      (fun q p hp => (ldP_apply i 1 x1 k q p (by rw [hp, hs]; show 4096 * s + 1024 + q.val = 4096 * s + 1024 * 1 + q.val; omega)).trans (hx1 p))
      (fun q p hp => (ldF_apply 1 x0 c q ⟨1024 + q.val, by have := q.isLt; omega⟩ (by show 1024 + q.val = 1024 * 1 + q.val; omega)).trans
        (hx0 _ p (by rw [hp]; show 4096 * s + 1024 + q.val = 4096 * s + (1024 + q.val); omega))) hmx,
    chunk_num X P b c k (ldP i 2 x1) (ldF 2 x0) mx (4096 * s + 1024 + 1024) (by omega)
      (fun q p hp => (ldP_apply i 2 x1 k q p (by rw [hp, hs]; show 4096 * s + 1024 + 1024 + q.val = 4096 * s + 1024 * 2 + q.val; omega)).trans (hx1 p))
      (fun q p hp => (ldF_apply 2 x0 c q ⟨2048 + q.val, by have := q.isLt; omega⟩ (by show 2048 + q.val = 1024 * 2 + q.val; omega)).trans
        (hx0 _ p (by rw [hp]; show 4096 * s + 1024 + 1024 + q.val = 4096 * s + (2048 + q.val); omega))) hmx,
    chunk_num X P b c k (ldP i 3 x1) (ldF 3 x0) mx (4096 * s + 1024 + 1024 + 1024) (by omega)
      (fun q p hp => (ldP_apply i 3 x1 k q p (by rw [hp, hs]; show 4096 * s + 1024 + 1024 + 1024 + q.val = 4096 * s + 1024 * 3 + q.val; omega)).trans (hx1 p))
      (fun q p hp => (ldF_apply 3 x0 c q ⟨3072 + q.val, by have := q.isLt; omega⟩ (by show 3072 + q.val = 1024 * 3 + q.val; omega)).trans
        (hx0 _ p (by rw [hp]; show 4096 * s + 1024 + 1024 + 1024 + q.val = 4096 * s + (3072 + q.val); omega))) hmx]
  rw [show 4096 * (s + 1) = 4096 * s + 1024 + 1024 + 1024 + 1024 by omega, numTo_add, numTo_add, numTo_add, numTo_add]

end Cert.KernelIdeal.KVal

end
-- ==== Proof.KBlocks.lean ====
/-
  The two input windows' blocks, read at an index.

  Grid point `t` (of 64) is batch `t / 8`, spatial tile `t % 8`. The features' window holds, at that point, the
  [1, 512, 4096] block (batch, all channels, the tile's 4096 positions) of the features reshaped to
  [8, 512, 32768]; the scores' window holds the [1, 19, 32768] block (batch, all classes, the whole plane) of the
  scores reshaped to [8, 19, 32768]. The reshape flattens the 128 × 256 plane row by row.
-/
import proofs.«101032_j2894807957610_2_alg».proof.Proof.Gen.KernelIdeal.Frame
import proofs.«101032_j2894807957610_2_alg».proof.Proof.Spec
import Idealize.ShloMosaic.Lib.Pipeline.Value
import Idealize.ShloMosaic.Lib.StableHlo.Run

set_option maxRecDepth 16384

noncomputable section

open Idealize.ShloMosaic Idealize.ShloMosaic.TcCoe Idealize.ShloMosaic.ValueIdx

namespace Cert.KernelIdeal.KVal

open Cert.KernelIdeal Cert.KernelIdeal.Gen Cert.SpatialGather Idealize.SL.Sem

variable (m : (ℓ : Loc nD τ sig) → Buf (Elt Ideal) ℓ)

/-- The batch of a grid point. -/
def batchOf (t : Fin cfg0.N) : Fin 8 := ⟨t.val / 8, by have := t.isLt; have hN : cfg0.N = 64 := N_0; omega⟩

/-- The grid point's second coordinate is its spatial tile. -/
theorem coord_tile : ∀ t : Fin cfg0.N, (grid0.coords t 1).val = t.val % 8 :=
  (by decide +kernel : ∀ t : Fin grid0.N, (grid0.coords t 1).val = t.val % 8)

/-- The features' block index at a point: (batch, 0, tile). -/
theorem index_feats : ∀ t : Fin cfg0.N, win0_0.index t 0 = t.val / 8 ∧ win0_0.index t 1 = 0 ∧ win0_0.index t 2 = t.val % 8 :=
  (by decide +kernel : ∀ t : Fin grid0.N, win0_0.index t 0 = t.val / 8 ∧ win0_0.index t 1 = 0 ∧ win0_0.index t 2 = t.val % 8)

/-- The scores' block index at a point: (batch, 0, 0). -/
theorem index_probs : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)

/-- The output's block index at a point: (batch, 0, 0). -/
theorem index_out : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- The region finds the scores reshaped to [8, 19, 32768]. -/
theorem entry_probs (c : Dev nD) :
    (V m c main_v1 : S8x19x32768.Idx → EReal)
      = shapeCast S8x19x32768 (m ((c : Thread nD τ).loc main_arg1)) shapeCasts_S8x19x128x256_S8x19x32768 := by
  show StableHlo.after hostOps0 (fun b => m (c, b)) (Proc.devRef .tc main_v1) = _
  after_results
  rfl

/-- The region finds the features reshaped to [8, 512, 32768]. -/
theorem entry_feats (c : Dev nD) :
    (V m c main_v0 : S8x512x32768.Idx → EReal)
      = shapeCast S8x512x32768 (m ((c : Thread nD τ).loc main_arg0)) shapeCasts_S8x512x128x256_S8x512x32768 := by
  show StableHlo.after hostOps0 (fun b => m (c, b)) (Proc.devRef .tc main_v0) = _
  after_results
  rfl

/-- The reshaped scores at (batch, class, position) are the scores at the position's row and column. -/
theorem entry_probs_apply (c : Dev nD) (b : Fin 8) (k : Fin 19) (p : Fin 32768) :
    (V m c main_v1 : S8x19x32768.Idx → EReal) (ix3 b k p) = pAt (m ((c : Thread nD τ).loc main_arg1)) b k p := by
  rw [entry_probs]
  unfold pAt
  refine shapeCast_apply _ shapeCasts_S8x19x128x256_S8x19x32768 (ix3 b k p) (ix4 b k (rowOf p) (colOf p)) ?_
  rw [Shape.rowMajor_val_four, Shape.rowMajor_val_three]
  have := p.isLt
  show ((b.val * 19 + k.val) * 128 + p.val / 256) * 256 + p.val % 256 = (b.val * 19 + k.val) * 32768 + p.val
  omega

/-- The reshaped features at (batch, channel, position) are the features at the position's row and column. -/
theorem entry_feats_apply (c : Dev nD) (b : Fin 8) (ch : Fin 512) (p : Fin 32768) :
    (V m c main_v0 : S8x512x32768.Idx → EReal) (ix3 b ch p) = fAt (m ((c : Thread nD τ).loc main_arg0)) b ch p := by
  rw [entry_feats]
  unfold fAt
  refine shapeCast_apply _ shapeCasts_S8x512x128x256_S8x512x32768 (ix3 b ch p) (ix4 b ch (rowOf p) (colOf p)) ?_
  rw [Shape.rowMajor_val_four, Shape.rowMajor_val_three]
  have := p.isLt
  show ((b.val * 512 + ch.val) * 128 + p.val / 256) * 256 + p.val % 256 = (b.val * 512 + ch.val) * 32768 + p.val
  omega

/-- The scores' block at a point, at (class, position): the batch's scores there. -/
theorem block_probs (c : Dev nD) (t : Fin cfg0.N) (k : Fin 19) (p : Fin 32768) :
    (iblk m c 1 t : Vec Ideal S1x19x32768 .f32) (ix3 (0 : Fin 1) k p)
      = pAt (m ((c : Thread nD τ).loc main_arg1)) (batchOf t) k p := by
  unfold iblk
  rw [View.read_apply]
  show (V m c main_v1 : S8x19x32768.Idx → EReal) _ = _
  refine (congrArg (V m c main_v1 : S8x19x32768.Idx → EReal) (funext fun a => Fin.ext ?_)).trans
    (entry_probs_apply m c (batchOf t) k p)
  match a with
  | ⟨0, _⟩ => show win0_1.index t 0 * 1 + 1 * 0 = t.val / 8; rw [(index_probs t).1]; omega
  | ⟨1, _⟩ => show win0_1.index t 1 * 19 + 1 * k.val = k.val; rw [(index_probs t).2.1]; omega
  | ⟨2, _⟩ => show win0_1.index t 2 * 32768 + 1 * p.val = p.val; rw [(index_probs t).2.2]; omega

/-- The features' block at a point, at (channel, position of the tile): the batch's features at 4096·tile + position. -/
theorem block_feats (c : Dev nD) (t : Fin cfg0.N) (ch : Fin 512) (q : Fin 4096) (p : Fin 32768)
    (hp : p.val = 4096 * (t.val % 8) + q.val) :
    (iblk m c 0 t : Vec Ideal S1x512x4096 .f32) (ix3 (0 : Fin 1) ch q)
      = fAt (m ((c : Thread nD τ).loc main_arg0)) (batchOf t) ch p := by
  unfold iblk
  rw [View.read_apply]
  show (V m c main_v0 : S8x512x32768.Idx → EReal) _ = _
  refine (congrArg (V m c main_v0 : S8x512x32768.Idx → EReal) (funext fun a => Fin.ext ?_)).trans
    (entry_feats_apply m c (batchOf t) ch p)
  match a with
  | ⟨0, _⟩ => show win0_0.index t 0 * 1 + 1 * 0 = t.val / 8; rw [(index_feats t).1]; omega
  | ⟨1, _⟩ => show win0_0.index t 1 * 512 + 1 * ch.val = ch.val; rw [(index_feats t).2.1]; omega
  | ⟨2, _⟩ => show win0_0.index t 2 * 4096 + 1 * q.val = p.val; rw [(index_feats t).2.2, hp]; omega

end Cert.KernelIdeal.KVal

end
-- ==== Proof.KInv.lean ====
/-
  What the carried scratch holds after each grid point, and what the last tile of a batch stores.

  By induction over the 64 grid points (batch = point / 8, tile = point % 8): after the point the first scratch
  holds the batch's row maxima, the second the normalizer over the first 4096·(tile + 1) positions of the plane,
  the third the weighted sum over the same positions. The first tile of a batch establishes this from nothing
  (it stores the maxima and zeroes); every other tile extends what the tile before left. At the last tile
  (tile 7) the sums run over the whole plane, and the stored quotient is the specification's value.
-/
import proofs.«101032_j2894807957610_2_alg».proof.Proof.KPieces
import proofs.«101032_j2894807957610_2_alg».proof.Proof.KTile
import proofs.«101032_j2894807957610_2_alg».proof.Proof.KBlocks

set_option maxRecDepth 16384

noncomputable section

open Idealize.ShloMosaic Idealize.ShloMosaic.TcCoe Idealize.ShloMosaic.ValueIdx

namespace Cert.KernelIdeal.KVal

open Cert.KernelIdeal Cert.KernelIdeal.Gen Cert.SpatialGather Idealize.SL.Sem

variable (m : (ℓ : Loc nD τ sig) → Buf (Elt Ideal) ℓ) (c : Dev nD)

/-- The scores and the features the program was launched with, on core `c`. -/
abbrev probsOf : SProbs.Idx → EReal := m ((c : Thread nD τ).loc main_arg1)
abbrev featsOf : SFeats.Idx → EReal := m ((c : Thread nD τ).loc main_arg0)

/-! ## The three cases, point by point -/

/-- A batch's first tile: the maxima of the batch's scores, and the chunk steps from zero. -/
theorem point_first (t : Fin cfg0.N) (h0 : t.val % 8 = 0) (h1 : ¬t.val % 8 = 7) :
    (outsAt0 m c t.val t.isLt).2
      = (rowMaxBlk (iblk m c 1 t), lChain (grid0.coords t) (iblk m c 1 t) (rowMaxBlk (iblk m c 1 t)) (k0_pay6 (F := Ideal)),
          accChain (grid0.coords t) (iblk m c 0 t) (iblk m c 1 t) (rowMaxBlk (iblk m c 1 t)) (k0_pay7 (F := Ideal))) := by
  rw [outsAt0_A m c t h0 h1]
  dsimp only
  exact congrArg₂ Prod.mk (first_max c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t))
    (congrArg₂ Prod.mk (first_norm c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) (first_acc c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)))

/-- A middle tile: the maxima kept, the chunk steps over what the tile before left. -/
theorem point_mid (t : Fin cfg0.N) (h0 : ¬t.val % 8 = 0) (h1 : ¬t.val % 8 = 7) :
    (outsAt0 m c t.val t.isLt).2
      = ((outsAt0 m c (t.val - 1) (Nat.lt_of_le_of_lt (Nat.sub_le _ _) t.isLt)).2.1,
          lChain (grid0.coords t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1,
          accChain (grid0.coords t) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2) := by
  rw [outsAt0_B m c t h0 h1]
  dsimp only
  exact congrArg₂ Prod.mk rfl
    (congrArg₂ Prod.mk (mid_norm c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (mid_acc c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2))

/-- The last tile: the same for the scratch, -/
theorem point_last (t : Fin cfg0.N) (h0 : ¬t.val % 8 = 0) (h1 : t.val % 8 = 7) :
    (outsAt0 m c t.val t.isLt).2
      = ((outsAt0 m c (t.val - 1) (Nat.lt_of_le_of_lt (Nat.sub_le _ _) t.isLt)).2.1,
          lChain (grid0.coords t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1,
          accChain (grid0.coords t) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2) := by
  rw [outsAt0_C m c t h0 h1]
  dsimp only
  exact congrArg₂ Prod.mk rfl
    (congrArg₂ Prod.mk (last_norm c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (last_acc c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2))

/-- and the output block: the finished accumulator divided by the finished normalizer. -/
theorem point_last_out (t : Fin cfg0.N) (h0 : ¬t.val % 8 = 0) (h1 : t.val % 8 = 7) :
    (outsAt0 m c t.val t.isLt).1
      = k0_pay4 (accChain (grid0.coords t) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2)
          (lChain (grid0.coords t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1) := by
  rw [outsAt0_C m c t h0 h1]
  dsimp only
  exact last_out c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-! ## The invariant -/

/-- After grid point `n` the carried scratch holds, for the point's batch: the row maxima; the normalizer over the
    first 4096·(tile + 1) positions; the weighted sum over the same positions. -/
structure Holds (t : Fin cfg0.N) : Prop where
  mx : ∀ (k : Fin 19) (z : Fin 1), (outsAt0 m c t.val t.isLt).2.1 (ix2 k z) = rowMax (probsOf m c) (batchOf t) k
  dn : ∀ (k : Fin 19) (z : Fin 1),
    (outsAt0 m c t.val t.isLt).2.2.1 (ix2 k z) = denTo (probsOf m c) (batchOf t) k (4096 * (t.val % 8 + 1))
  nm : ∀ (k : Fin 19) (ch : Fin 512),
    (outsAt0 m c t.val t.isLt).2.2.2 (ix2 k ch) = numTo (featsOf m c) (probsOf m c) (batchOf t) ch k (4096 * (t.val % 8 + 1))

/-- The maxima the first tile stores are the batch's row maxima. -/
theorem rowMaxBlk_block (t : Fin cfg0.N) (k : Fin 19) (z : Fin 1) :
    rowMaxBlk (iblk m c 1 t) (ix2 k z) = rowMax (probsOf m c) (batchOf t) k := by
  rw [rowMaxBlk_apply]
  unfold rowMax
  exact congrArg (fun f : Fin 32768 → EReal => (Finset.univ : Finset (Fin 32768)).fold max (Ideal.ofBits .f32 0xFF800000#32) f)
    (funext fun q => block_probs m c t k q)

-- from here on the specification's sums are names: nothing below needs to look inside them
attribute [local irreducible] rowMax denTo numTo num den

/-- A batch's first tile establishes the invariant from nothing. -/
theorem holds_first (t : Fin cfg0.N) (h0 : t.val % 8 = 0) : Holds m c t := by
  have h1 : ¬t.val % 8 = 7 := by omega
  have hp := point_first m c t h0 h1
  refine ⟨fun k z => ?_, fun k z => ?_, fun k ch => ?_⟩
  · rw [hp]
    dsimp only
    exact rowMaxBlk_block m c t k z
  · rw [hp]
    dsimp only
    exact tile_den (probsOf m c) (batchOf t) k (grid0.coords t) (t.val % 8) (coord_tile t) (Nat.mod_lt _ (by decide))
      (iblk m c 1 t) (rowMaxBlk (iblk m c 1 t)) (k0_pay6 (F := Ideal)) z (block_probs m c t k) (rowMaxBlk_block m c t k 0)
      (by rw [pay6_apply, h0]; exact (denTo_zero _ _ _).symm)
  · rw [hp]
    dsimp only
    exact tile_num (featsOf m c) (probsOf m c) (batchOf t) ch k (grid0.coords t) (t.val % 8) (coord_tile t) (Nat.mod_lt _ (by decide))
      (iblk m c 0 t) (iblk m c 1 t) (rowMaxBlk (iblk m c 1 t)) (k0_pay7 (F := Ideal))
      (fun q p hp' => block_feats m c t ch q p hp') (block_probs m c t k) (rowMaxBlk_block m c t k 0)
      (by rw [pay7_apply, h0]; exact (numTo_zero _ _ _ _ _).symm)

/-- Every other tile extends what the tile before left. -/
theorem holds_next (t : Fin cfg0.N) (h0 : ¬t.val % 8 = 0)
    (ih : Holds m c ⟨t.val - 1, Nat.lt_of_le_of_lt (Nat.sub_le _ _) t.isLt⟩) : Holds m c t := by
  have hb : batchOf ⟨t.val - 1, Nat.lt_of_le_of_lt (Nat.sub_le _ _) t.isLt⟩ = batchOf t :=
    Fin.ext (by show (t.val - 1) / 8 = t.val / 8; omega)
  have hs : (t.val - 1) % 8 + 1 = t.val % 8 := by omega
  have hp : (outsAt0 m c t.val t.isLt).2
      = ((outsAt0 m c (t.val - 1) (Nat.lt_of_le_of_lt (Nat.sub_le _ _) t.isLt)).2.1,
          lChain (grid0.coords t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1,
          accChain (grid0.coords t) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2) := by
    by_cases h1 : t.val % 8 = 7
    · exact point_last m c t h0 h1
    · exact point_mid m c t h0 h1
  have hmx : ∀ (k : Fin 19) (z : Fin 1), (outsAt0 m c (t.val - 1) (Nat.lt_of_le_of_lt (Nat.sub_le _ _) t.isLt)).2.1 (ix2 k z) = rowMax (probsOf m c) (batchOf t) k :=
    fun k z => by rw [ih.mx k z, hb]
  refine ⟨fun k z => ?_, fun k z => ?_, fun k ch => ?_⟩
  · rw [hp]
    dsimp only
    exact hmx k z
  · rw [hp]
    dsimp only
    exact tile_den (probsOf m c) (batchOf t) k (grid0.coords t) (t.val % 8) (coord_tile t) (Nat.mod_lt _ (by decide))
      (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 z (block_probs m c t k) (hmx k 0)
      (by rw [ih.dn k z, hb, hs])
  · rw [hp]
    dsimp only
    exact tile_num (featsOf m c) (probsOf m c) (batchOf t) ch k (grid0.coords t) (t.val % 8) (coord_tile t) (Nat.mod_lt _ (by decide))
      (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2
      (fun q p hp' => block_feats m c t ch q p hp') (block_probs m c t k) (hmx k 0)
      (by rw [ih.nm k ch, hb, hs])

/-- The invariant at every point, by induction on the point. -/
theorem holds : ∀ (n : ℕ) (h : n < cfg0.N), Holds m c ⟨n, h⟩
  | 0, h => holds_first m c ⟨0, h⟩ rfl
  | n + 1, h => by
    by_cases h0 : (n + 1) % 8 = 0
    · exact holds_first m c ⟨n + 1, h⟩ h0
    · exact holds_next m c ⟨n + 1, h⟩ h0 (holds n (Nat.lt_of_succ_lt h))

/-- At a batch's last tile the output block holds, at (class, channel), the weighted sum over the whole plane divided
    by the normalizer over the whole plane. -/
theorem out_last (t : Fin cfg0.N) (h1 : t.val % 8 = 7) (k : Fin 19) (ch : Fin 512) :
    (outsAt0 m c t.val t.isLt).1 (ix3 (0 : Fin 1) k ch)
      = Ideal.div (num (featsOf m c) (probsOf m c) (batchOf t) ch k) (den (probsOf m c) (batchOf t) k) := by
  have h0 : ¬t.val % 8 = 0 := by omega
  have hh : Holds m c t := holds m c t.val t.isLt
  have hp := point_last m c t h0 h1
  have ea := hh.nm k ch
  have el := hh.dn k (0 : Fin 1)
  rw [hp] at ea el
  dsimp only at ea el
  rw [point_last_out m c t h0 h1, pay4_apply]
  refine (congrArg₂ Ideal.div ea el).trans ?_
  rw [h1]
  show Ideal.div (numTo (featsOf m c) (probsOf m c) (batchOf t) ch k 32768) (denTo (probsOf m c) (batchOf t) k 32768) = _
  rw [numTo_full, denTo_full]

end Cert.KernelIdeal.KVal

end
-- ==== Proof.KFinal.lean ====
/-
  The kernel's result array, and its run.

  The output window is written back once per batch, at the batch's last tile, and that block (batch, all classes, all
  channels) holds the specification's quotient; the eight blocks tile the [8, 19, 512] array. The two host
  operations after the region transpose it to [8, 512, 19] and add a trailing unit axis: the program's result is
  the specification's array.
-/
import proofs.«101032_j2894807957610_2_alg».proof.Proof.KInv
import Idealize.ShloMosaic.Lib.Pipeline.Value
import Idealize.ShloMosaic.Lib.StableHlo.Run

set_option maxRecDepth 16384

noncomputable section

open Idealize.ShloMosaic Idealize.ShloMosaic.TcCoe Idealize.ShloMosaic.ValueIdx

namespace Cert.KernelIdeal.KVal

open Cert.KernelIdeal Cert.KernelIdeal.Gen Cert.SpatialGather Idealize.SL.Sem
open Idealize.ShloMosaic.Pipeline (Dat)

variable (m : (ℓ : Loc nD τ sig) → Buf (Elt Ideal) ℓ) (c : Dev nD)

/-- The kernel's own layout of the result: [batch, class, channel]. -/
def outArr (X : SFeats.Idx → EReal) (P : SProbs.Idx → EReal) : S8x19x512.Idx → EReal := fun j =>
  Ideal.div (num X P (j 0) (j 2) (j 1)) (den P (j 0) (j 1))

-- the specification's sums are names here: nothing below looks inside them
attribute [local irreducible] num den

/-- What a batch's last tile writes back is the batch's block of that array. -/
theorem flushed_eq (t : Fin cfg0.N) (hf : (cfg0.win 2).flush t = true) :
    (dats m 0 c).flushed 2 t = ((cfg0.win 2).blk t).view.read (Elt Ideal) (outArr (featsOf m c) (probsOf m c)) := by
  have h1 : t.val % 8 = 7 := (flush0_2 t).mp hf
  show (cfg0.win 2).cut (grid0.coords t) ((dats m 0 c).after 2 t) = _
  rw [after0_2]
  funext j
  rw [View.read_apply]
  obtain ⟨z, k, ch, rfl⟩ : ∃ (z : Fin 1) (k : Fin 19) (ch : Fin 512), j = ix3 z k ch := ⟨j 0, j 1, j 2, eq_ix3 j⟩
  obtain rfl : z = 0 := Subsingleton.elim _ _
  show (outsAt0 m c t.val t.isLt).1 (ix3 (0 : Fin 1) k ch)
    = outArr (featsOf m c) (probsOf m c) (((cfg0.win 2).blk t).view.emb (ix3 (0 : Fin 1) k ch))
  refine (out_last m c t h1 k ch).trans ?_
  refine (congrArg (outArr (featsOf m c) (probsOf m c)) (funext fun a => Fin.ext ?_) :
    outArr (featsOf m c) (probsOf m c) (((cfg0.win 2).blk t).view.emb (ix3 (0 : Fin 1) k ch))
      = outArr (featsOf m c) (probsOf m c) (ix3 (batchOf t) k ch)).symm
  match a with
  | ⟨0, _⟩ => show win0_2.index t 0 * 1 + 1 * 0 = t.val / 8; rw [(index_out t).1]; omega
  | ⟨1, _⟩ => show win0_2.index t 1 * 19 + 1 * k.val = k.val; rw [(index_out t).2.1]; omega
  | ⟨2, _⟩ => show win0_2.index t 2 * 512 + 1 * ch.val = ch.val; rw [(index_out t).2.2]; omega

/-- An index of the output array is in point `t`'s block iff each coordinate is in the block's range on its axis. -/
theorem mem_blk (t : Fin cfg0.N) (i : S8x19x512.Idx) :
    i ∈ ((cfg0.win 2).blk t).view.set
      ↔ ∀ a : Fin 3, win0_2.index t a * S1x19x512.size a ≤ (i a).val ∧ (i a).val < win0_2.index t a * S1x19x512.size a + S1x19x512.size a := by
  show i ∈ ((View.whole main_v2).slice (win0_2.rect t)).set ↔ _
  rw [View.set_slice_whole, Rect.mem_set_unit]
  exact Iff.rfl

/-- Every index of the output array lies in the block its batch's last tile writes back. -/
theorem covered (i : S8x19x512.Idx) :
    ∃ t : Fin cfg0.N, (cfg0.win 2).flush t = true ∧ i ∈ ((cfg0.win 2).blk t).view.set := by
  have hN : cfg0.N = 64 := N_0
  have hi0 : (i 0).val < 8 := (i 0).isLt
  have hi1 : (i 1).val < 19 := (i 1).isLt
  have hi2 : (i 2).val < 512 := (i 2).isLt
  have ht : 8 * (i 0).val + 7 < cfg0.N := by omega
  refine ⟨⟨8 * (i 0).val + 7, ht⟩, (flush0_2 _).mpr (by show (8 * (i 0).val + 7) % 8 = 7; omega), ?_⟩
  rw [mem_blk]
  obtain ⟨e0, e1, e2⟩ := index_out ⟨8 * (i 0).val + 7, ht⟩
  intro a
  match a with
  | ⟨0, _⟩ =>
    show win0_2.index ⟨8 * (i 0).val + 7, ht⟩ 0 * 1 ≤ (i 0).val ∧ (i 0).val < win0_2.index ⟨8 * (i 0).val + 7, ht⟩ 0 * 1 + 1
    rw [e0]; show (8 * (i 0).val + 7) / 8 * 1 ≤ (i 0).val ∧ (i 0).val < (8 * (i 0).val + 7) / 8 * 1 + 1; omega
  | ⟨1, _⟩ =>
    show win0_2.index ⟨8 * (i 0).val + 7, ht⟩ 1 * 19 ≤ (i 1).val ∧ (i 1).val < win0_2.index ⟨8 * (i 0).val + 7, ht⟩ 1 * 19 + 19
    rw [e1]; omega
  | ⟨2, _⟩ =>
    show win0_2.index ⟨8 * (i 0).val + 7, ht⟩ 2 * 512 ≤ (i 2).val ∧ (i 2).val < win0_2.index ⟨8 * (i 0).val + 7, ht⟩ 2 * 512 + 512
    rw [e2]; omega

/-- So after the region the output array holds the quotient everywhere. -/
theorem final_out : (dats m 0 c).arrAt 2 cfg0.N = outArr (featsOf m c) (probsOf m c) :=
  (dats m 0 c).arrAt_eq_of_cover 2 (outArr (featsOf m c) (probsOf m c)) (fun t hf => flushed_eq m c t hf) (covered)

/-- The program's result: the output array transposed to [batch, channel, class], with a trailing unit axis, is
    the specification's array. -/
theorem tail_eq : Pipeline.afterTail₀ cfgs (dats m) 0 (V0 m) [hostOps1] c main_v4
    = G (featsOf m c) (probsOf m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2)
      = outArr (featsOf m c) (probsOf m c) :=
    (Pipeline.withArrays_arr spec0 launch0.win.arr_inj c _ _ 2).trans (final_out m c)
  rw [hw]
  funext i
  obtain ⟨b, ch, k, z, rfl⟩ : ∃ (b : Fin 8) (ch : Fin 512) (k : Fin 19) (z : Fin 1), i = ix4 b ch k z :=
    ⟨i 0, i 1, i 2, i 3, eq_ix4 i⟩
  rw [broadcastInDim_apply _ bcast_S8x512x19_S8x512x19x1_0_1_2 _ (ix4 b ch k z) (ix3 b ch k) (fun a => match a with
      | ⟨0, _⟩ => by show b.val = if (8 : Nat) = 1 then 0 else b.val; rw [if_neg (by decide)]
      | ⟨1, _⟩ => by show ch.val = if (512 : Nat) = 1 then 0 else ch.val; rw [if_neg (by decide)]
      | ⟨2, _⟩ => by show k.val = if (19 : Nat) = 1 then 0 else k.val; rw [if_neg (by decide)]),
    transpose_apply [0, 2, 1] (outArr (featsOf m c) (probsOf m c)) transposes_S8x19x512_S8x512x19_0_2_1 (ix3 b ch k) (ix3 b k ch)
      (fun a => match a with
        | ⟨0, _⟩ => rfl
        | ⟨1, _⟩ => rfl
        | ⟨2, _⟩ => rfl)]
  rfl

/-- The idealized kernel's run: every weakly fair execution terminates with the result array at the specification's
    array of the two arguments, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = G (featsOf m c) (probsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KVal

end
-- ==== Proof.lean ====
/-
  The certificate's claim: the Pallas kernel (softmax of the class scores over the flattened 128 × 256 plane, used
  as weights of a weighted sum of the features, per batch) against its jnp reference.

  Frames. The two kernel programs' frames are the generated ones; the reference has no kernel, and its frame is its
  run with the result dropped.

  Preserves. The idealization removed four round trips f32 → bf16 → f32 (one per chunk of a tile, on the weights
  entering the normalizer's sum): each is the identity at the ideal instance.

  Algebraic. Write w(s) = exp (probs[b, k, s] - max over the plane) for the unnormalized weights. The kernel
  accumulates, tile by tile and chunk by chunk, the two sums N = sum of w(s) * feats[b, c, s] and L = sum of w(s) over
  the plane, and stores N / L at the last tile (Proof/KStep … KFinal: only regrouping of sums, so no use of the
  precondition). The reference normalizes first and sums after: sum of (w(s) / L) * feats[b, c, s]
  (Proof/RefRead). The two agree because division by L distributes over the sum, and that needs every term to be a
  real number: this is where finiteness of the inputs is used (Proof/Finite: from the precondition; Proof/Law: the
  maximum is then a real, every weight a positive real, so L is a positive real and the law holds over the reals).
  Both sides are stated against one function of the arguments, Proof/Spec's `G`.
-/
import proofs.«101032_j2894807957610_2_alg».proof.Defs
import proofs.«101032_j2894807957610_2_alg».proof.Proof.Gen.Kernel
import proofs.«101032_j2894807957610_2_alg».proof.Proof.Gen.Kernel.Skeleton
import proofs.«101032_j2894807957610_2_alg».proof.Proof.Gen.Kernel.Launch
import proofs.«101032_j2894807957610_2_alg».proof.Proof.Gen.Kernel.Points
import proofs.«101032_j2894807957610_2_alg».proof.Proof.Gen.Kernel.Frame
import proofs.«101032_j2894807957610_2_alg».proof.Proof.Gen.KernelIdeal
import proofs.«101032_j2894807957610_2_alg».proof.Proof.Gen.KernelIdeal.Skeleton
import proofs.«101032_j2894807957610_2_alg».proof.Proof.Gen.KernelIdeal.Launch
import proofs.«101032_j2894807957610_2_alg».proof.Proof.Gen.KernelIdeal.Points
import proofs.«101032_j2894807957610_2_alg».proof.Proof.Gen.KernelIdeal.Frame
import proofs.«101032_j2894807957610_2_alg».proof.Proof.Gen.ReferenceIdeal
import proofs.«101032_j2894807957610_2_alg».proof.Proof.Gen.Pre_finite_inputs
import proofs.«101032_j2894807957610_2_alg».proof.Proof.RefRead
import proofs.«101032_j2894807957610_2_alg».proof.Proof.Finite
import proofs.«101032_j2894807957610_2_alg».proof.Proof.KFinal
import Idealize.ShloMosaic.Adequacy
import Idealize.ShloMosaic.Init

noncomputable section

namespace Cert.Proof

open Idealize.ShloMosaic Idealize.SL.Sem Cert.SpatialGather

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The four removed round trips through bf16, one per chunk: the identity on extended reals. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- Both programs end with the specification's array of the arguments: the kernel by its run read through the
    grid (no precondition needed), the reference by its run read at an index and the law that division by the
    normalizer distributes over the sum, which holds because the inputs are finite. -/
theorem algebraic : Cert.algebraic_KernelIdeal_ReferenceIdeal := by
  intro m ρ m' ρ' hpre hagree
  refine ⟨fun c => G (Cert.KernelIdeal.KVal.featsOf m c) (Cert.KernelIdeal.KVal.probsOf m c),
    Cert.KernelIdeal.KVal.run m ρ, ?_⟩
  refine (θ_run Cert.ReferenceIdeal.defs _ _).mono (fun _ h c => ⟨?_, (h c).2⟩)
    (Cert.ReferenceIdeal.Value.run (F := Ideal) m' ρ')
  have hfin := finite_of_pre _ _ (hpre c)
  rw [(h c).1, Cert.ReferenceIdeal.Read.val_main_v17_eq, (hagree c).1, (hagree c).2]
  exact ref_eq _ _ hfin.1 hfin.2

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
